-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x2048 : Shape := ⟨2, ![1024, 2048]⟩
abbrev S2048 : Shape := ⟨1, ![2048]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8x2048x1024 .f32) (main_arg1 : FVec F S1024x2048 .f32) (main_arg2 : FVec F S2048 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8x2048x1024 : Shape := ⟨3, ![8, 2048, 1024]⟩
abbrev S1024x2048 : Shape := ⟨2, ![1024, 2048]⟩
abbrev S2048 : Shape := ⟨1, ![2048]⟩
abbrev S1x2048 : Shape := ⟨2, ![1, 2048]⟩
abbrev S8x2048x2048 : Shape := ⟨3, ![8, 2048, 2048]⟩
abbrev S1x256x1024 : Shape := ⟨3, ![1, 256, 1024]⟩
abbrev S1x256x2048 : Shape := ⟨3, ![1, 256, 2048]⟩
abbrev S8x2048 : Shape := ⟨2, ![8, 2048]⟩
abbrev S256x1024 : Shape := ⟨2, ![256, 1024]⟩
abbrev S256x2048 : Shape := ⟨2, ![256, 2048]⟩
abbrev S7x2048 : Shape := ⟨2, ![7, 2048]⟩
abbrev S263x2048 : Shape := ⟨2, ![263, 2048]⟩

abbrev nBuf : Space → Nat
  | .hbm => 8
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S1024x2048, .f32⟩
  | .hbm, ⟨2, _⟩ => ⟨S2048, .f32⟩
  | .hbm, ⟨3, _⟩ => ⟨S1024x2048, .bf16⟩
  | .hbm, ⟨4, _⟩ => ⟨S1x2048, .f32⟩
  | .hbm, ⟨5, _⟩ => ⟨S8x2048x2048, .f32⟩
  | .hbm, ⟨6, _⟩ => ⟨S8x2048x2048, .f32⟩
  | .hbm, ⟨7, _⟩ => ⟨S8x2048x2048, .f32⟩
  | .local _ .vmem, ⟨0, _⟩ => ⟨S1x256x1024, .f32⟩
  | .local _ .vmem, ⟨1, _⟩ => ⟨S1x256x1024, .f32⟩
  | .local _ .vmem, ⟨2, _⟩ => ⟨S1024x2048, .bf16⟩
  | .local _ .vmem, ⟨3, _⟩ => ⟨S1x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S8x2048, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bitsLt_bf16_f32 : FTy.bits .bf16 < FTy.bits .f32
  shapeCasts_S2048_S1x2048 : S2048.ShapeCasts S1x2048
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S8x2048_S7x2048_0_0 : ∀ a, (![0, 0] : Fin 2 → Nat) a + S7x2048.size a ≤ S8x2048.size a
  h_S7x2048 : 0 < S7x2048.numel
  concatenates_S7x2048_S256x2048_S263x2048_d0 : Shape.Concatenates [S7x2048, S256x2048] S263x2048 0
  slices_S263x2048_o7_0_S256x2048 : S263x2048.Slices ![7, 0] S256x2048
  rotates_S256x2048_d1 : S256x2048.Rotates 1 none
  slices_S263x2048_o6_0_S256x2048 : S263x2048.Slices ![6, 0] S256x2048
  slices_S263x2048_o5_0_S256x2048 : S263x2048.Slices ![5, 0] S256x2048
  slices_S263x2048_o4_0_S256x2048 : S263x2048.Slices ![4, 0] S256x2048
  slices_S263x2048_o3_0_S256x2048 : S263x2048.Slices ![3, 0] S256x2048
  slices_S263x2048_o2_0_S256x2048 : S263x2048.Slices ![2, 0] S256x2048
  slices_S263x2048_o1_0_S256x2048 : S263x2048.Slices ![1, 0] S256x2048
  slices_S263x2048_o0_0_S256x2048 : S263x2048.Slices ![0, 0] S256x2048
  natLt_1_32 : 1 < 32
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  slices_S256x2048_o249_0_S7x2048 : S256x2048.Slices ![249, 0] S7x2048
  shapeCasts_S7x2048_S7x2048 : S7x2048.ShapeCasts S7x2048
  dot_S256x1024_S1024x2048_S256x2048_1_0_0_1_n_n_wf : DotDims.WF S256x1024 S1024x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x2048x1024.size a
  hwx0_0 : ∀ i : grid0.Coords, EltTy.bits .f32 = 32 ∨ (Rect.block (s := S8x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S8x2048x2048.size a
  hwx0_3 : ∀ i : grid0.Coords, EltTy.bits .f32 = 32 ∨ (Rect.block (s := S8x2048x2048) S1x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S8x2048x2048.size a
  hwx0_4 : ∀ i : grid0.Coords, EltTy.bits .f32 = 32 ∨ (Rect.block (s := S8x2048x2048) S1x256x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S8x2048x2048.size a
  hwx0_5 : ∀ i : grid0.Coords, EltTy.bits .f32 = 32 ∨ (Rect.block (s := S8x2048x2048) S1x256x2048.size (cc0_transform_5 i) (hinb0_5 i)).WholeWords (EltTy.packing .f32)

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x256x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x256x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_2) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S1024x2048 : Shape := ⟨2, ![1024, 2048]⟩
abbrev S2048 : Shape := ⟨1, ![2048]⟩
abbrev S8x2048x2048 : Shape := ⟨3, ![8, 2048, 2048]⟩
abbrev S1x1x2048 : Shape := ⟨3, ![1, 1, 2048]⟩
abbrev S_ : Shape := ⟨0, ![]⟩
abbrev S8x2062x2048 : Shape := ⟨3, ![8, 2062, 2048]⟩
abbrev S8x2055x2048 : Shape := ⟨3, ![8, 2055, 2048]⟩
abbrev S8x2062x2041 : Shape := ⟨3, ![8, 2062, 2041]⟩
abbrev S8x2062x7 : Shape := ⟨3, ![8, 2062, 7]⟩
abbrev S8x2062x2042 : Shape := ⟨3, ![8, 2062, 2042]⟩
abbrev S8x2062x6 : Shape := ⟨3, ![8, 2062, 6]⟩
abbrev S8x2062x2043 : Shape := ⟨3, ![8, 2062, 2043]⟩
abbrev S8x2062x5 : Shape := ⟨3, ![8, 2062, 5]⟩
abbrev S8x2062x2044 : Shape := ⟨3, ![8, 2062, 2044]⟩
abbrev S8x2062x4 : Shape := ⟨3, ![8, 2062, 4]⟩
abbrev S8x2062x2045 : Shape := ⟨3, ![8, 2062, 2045]⟩
abbrev S8x2062x3 : Shape := ⟨3, ![8, 2062, 3]⟩
abbrev S8x2062x2046 : Shape := ⟨3, ![8, 2062, 2046]⟩
abbrev S8x2062x2 : Shape := ⟨3, ![8, 2062, 2]⟩
abbrev S8x2062x2047 : Shape := ⟨3, ![8, 2062, 2047]⟩
abbrev S8x2062x1 : Shape := ⟨3, ![8, 2062, 1]⟩
abbrev S8x2062x0 : Shape := ⟨3, ![8, 2062, 0]⟩

abbrev nBuf : Space → Nat
  | .hbm => 58
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x2048, .f32⟩
  | .hbm, ⟨2, _⟩ => ⟨S2048, .f32⟩
  | .hbm, ⟨3, _⟩ => ⟨S8x2048x2048, .f32⟩
  | .hbm, ⟨4, _⟩ => ⟨S1x1x2048, .f32⟩
  | .hbm, ⟨5, _⟩ => ⟨S8x2048x2048, .f32⟩
  | .hbm, ⟨6, _⟩ => ⟨S8x2048x2048, .f32⟩
  | .hbm, ⟨7, _⟩ => ⟨S_, .i32⟩
  | .hbm, ⟨8, _⟩ => ⟨S_, .f32⟩
  | .hbm, ⟨9, _⟩ => ⟨S8x2062x2048, .f32⟩
  | .hbm, ⟨10, _⟩ => ⟨S_, .f32⟩
  | .hbm, ⟨11, _⟩ => ⟨S8x2055x2048, .f32⟩
  | .hbm, ⟨12, _⟩ => ⟨S8x2062x2041, .f32⟩
  | .hbm, ⟨13, _⟩ => ⟨S8x2062x7, .f32⟩
  | .hbm, ⟨14, _⟩ => ⟨S8x2062x2048, .f32⟩
  | .hbm, ⟨15, _⟩ => ⟨S8x2055x2048, .f32⟩
  | .hbm, ⟨16, _⟩ => ⟨S8x2055x2048, .f32⟩
  | .hbm, ⟨17, _⟩ => ⟨S8x2062x2042, .f32⟩
  | .hbm, ⟨18, _⟩ => ⟨S8x2062x6, .f32⟩
  | .hbm, ⟨19, _⟩ => ⟨S8x2062x2048, .f32⟩
  | .hbm, ⟨20, _⟩ => ⟨S8x2055x2048, .f32⟩
  | .hbm, ⟨21, _⟩ => ⟨S8x2055x2048, .f32⟩
  | .hbm, ⟨22, _⟩ => ⟨S8x2062x2043, .f32⟩
  | .hbm, ⟨23, _⟩ => ⟨S8x2062x5, .f32⟩
  | .hbm, ⟨24, _⟩ => ⟨S8x2062x2048, .f32⟩
  | .hbm, ⟨25, _⟩ => ⟨S8x2055x2048, .f32⟩
  | .hbm, ⟨26, _⟩ => ⟨S8x2055x2048, .f32⟩
  | .hbm, ⟨27, _⟩ => ⟨S8x2062x2044, .f32⟩
  | .hbm, ⟨28, _⟩ => ⟨S8x2062x4, .f32⟩
  | .hbm, ⟨29, _⟩ => ⟨S8x2062x2048, .f32⟩
  | .hbm, ⟨30, _⟩ => ⟨S8x2055x2048, .f32⟩
  | .hbm, ⟨31, _⟩ => ⟨S8x2055x2048, .f32⟩
  | .hbm, ⟨32, _⟩ => ⟨S8x2062x2045, .f32⟩
  | .hbm, ⟨33, _⟩ => ⟨S8x2062x3, .f32⟩
  | .hbm, ⟨34, _⟩ => ⟨S8x2062x2048, .f32⟩
  | .hbm, ⟨35, _⟩ => ⟨S8x2055x2048, .f32⟩
  | .hbm, ⟨36, _⟩ => ⟨S8x2055x2048, .f32⟩
  | .hbm, ⟨37, _⟩ => ⟨S8x2062x2046, .f32⟩
  | .hbm, ⟨38, _⟩ => ⟨S8x2062x2, .f32⟩
  | .hbm, ⟨39, _⟩ => ⟨S8x2062x2048, .f32⟩
  | .hbm, ⟨40, _⟩ => ⟨S8x2055x2048, .f32⟩
  | .hbm, ⟨41, _⟩ => ⟨S8x2055x2048, .f32⟩
  | .hbm, ⟨42, _⟩ => ⟨S8x2062x2047, .f32⟩
  | .hbm, ⟨43, _⟩ => ⟨S8x2062x1, .f32⟩
  | .hbm, ⟨44, _⟩ => ⟨S8x2062x2048, .f32⟩
  | .hbm, ⟨45, _⟩ => ⟨S8x2055x2048, .f32⟩
  | .hbm, ⟨46, _⟩ => ⟨S8x2055x2048, .f32⟩
  | .hbm, ⟨47, _⟩ => ⟨S8x2062x2048, .f32⟩
  | .hbm, ⟨48, _⟩ => ⟨S8x2062x0, .f32⟩
  | .hbm, ⟨49, _⟩ => ⟨S8x2062x2048, .f32⟩
  | .hbm, ⟨50, _⟩ => ⟨S8x2055x2048, .f32⟩
  | .hbm, ⟨51, _⟩ => ⟨S8x2055x2048, .f32⟩
  | .hbm, ⟨52, _⟩ => ⟨S8x2048x2048, .f32⟩
  | .hbm, ⟨53, _⟩ => ⟨S8x2048x2048, .f32⟩
  | .hbm, ⟨54, _⟩ => ⟨S_, .f32⟩
  | .hbm, ⟨55, _⟩ => ⟨S8x2048x2048, .f32⟩
  | .hbm, ⟨56, _⟩ => ⟨S8x2048x2048, .i1⟩
  | .hbm, ⟨57, _⟩ => ⟨S8x2048x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_call1_v0 : Ref sig .tc := ⟨.hbm, 12, rfl⟩
abbrev main_call1_v1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call2_v0 : Ref sig .tc := ⟨.hbm, 17, rfl⟩
abbrev main_call2_v1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call3_v0 : Ref sig .tc := ⟨.hbm, 22, rfl⟩
abbrev main_call3_v1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_call4_v0 : Ref sig .tc := ⟨.hbm, 27, rfl⟩
abbrev main_call4_v1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call5_v0 : Ref sig .tc := ⟨.hbm, 32, rfl⟩
abbrev main_call5_v1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_call6_v0 : Ref sig .tc := ⟨.hbm, 37, rfl⟩
abbrev main_call6_v1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call7_v0 : Ref sig .tc := ⟨.hbm, 42, rfl⟩
abbrev main_call7_v1 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call8_v0 : Ref sig .tc := ⟨.hbm, 47, rfl⟩
abbrev main_call8_v1 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_0 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S8x2048x2048_0_1_2 : S1x1x2048.BroadcastsInDim S8x2048x2048 (![0, 1, 2] : Fin 3 → Fin S8x2048x2048.rank)
  pads_S8x2048x2048_S8x2062x2048_000_770_000 : S8x2048x2048.Pads (![0, 7, 0] : Fin 3 → Nat) ![0, 7, 0] ![0, 0, 0] S8x2062x2048
  h_S_ : 0 < S_.numel
  bcast_S_S8x2055x2048 : S_.BroadcastsInDim S8x2055x2048 (![] : Fin 0 → Fin S8x2055x2048.rank)
  slices_S8x2062x2048_S8x2062x2041_0_0_7 : S8x2062x2048.Slices ![0, 0, 7] S8x2062x2041
  slices_S8x2062x2048_S8x2062x7_0_0_0 : S8x2062x2048.Slices ![0, 0, 0] S8x2062x7
  concatenates_S8x2062x2041_S8x2062x7_S8x2062x2048_d2 : Shape.Concatenates [S8x2062x2041, S8x2062x7] S8x2062x2048 2
  slices_S8x2062x2048_S8x2055x2048_0_0_0 : S8x2062x2048.Slices ![0, 0, 0] S8x2055x2048
  slices_S8x2062x2048_S8x2062x2042_0_0_6 : S8x2062x2048.Slices ![0, 0, 6] S8x2062x2042
  slices_S8x2062x2048_S8x2062x6_0_0_0 : S8x2062x2048.Slices ![0, 0, 0] S8x2062x6
  concatenates_S8x2062x2042_S8x2062x6_S8x2062x2048_d2 : Shape.Concatenates [S8x2062x2042, S8x2062x6] S8x2062x2048 2
  slices_S8x2062x2048_S8x2055x2048_0_1_0 : S8x2062x2048.Slices ![0, 1, 0] S8x2055x2048
  slices_S8x2062x2048_S8x2062x2043_0_0_5 : S8x2062x2048.Slices ![0, 0, 5] S8x2062x2043
  slices_S8x2062x2048_S8x2062x5_0_0_0 : S8x2062x2048.Slices ![0, 0, 0] S8x2062x5
  concatenates_S8x2062x2043_S8x2062x5_S8x2062x2048_d2 : Shape.Concatenates [S8x2062x2043, S8x2062x5] S8x2062x2048 2
  slices_S8x2062x2048_S8x2055x2048_0_2_0 : S8x2062x2048.Slices ![0, 2, 0] S8x2055x2048
  slices_S8x2062x2048_S8x2062x2044_0_0_4 : S8x2062x2048.Slices ![0, 0, 4] S8x2062x2044
  slices_S8x2062x2048_S8x2062x4_0_0_0 : S8x2062x2048.Slices ![0, 0, 0] S8x2062x4
  concatenates_S8x2062x2044_S8x2062x4_S8x2062x2048_d2 : Shape.Concatenates [S8x2062x2044, S8x2062x4] S8x2062x2048 2
  slices_S8x2062x2048_S8x2055x2048_0_3_0 : S8x2062x2048.Slices ![0, 3, 0] S8x2055x2048
  slices_S8x2062x2048_S8x2062x2045_0_0_3 : S8x2062x2048.Slices ![0, 0, 3] S8x2062x2045
  slices_S8x2062x2048_S8x2062x3_0_0_0 : S8x2062x2048.Slices ![0, 0, 0] S8x2062x3
  concatenates_S8x2062x2045_S8x2062x3_S8x2062x2048_d2 : Shape.Concatenates [S8x2062x2045, S8x2062x3] S8x2062x2048 2
  slices_S8x2062x2048_S8x2055x2048_0_4_0 : S8x2062x2048.Slices ![0, 4, 0] S8x2055x2048
  slices_S8x2062x2048_S8x2062x2046_0_0_2 : S8x2062x2048.Slices ![0, 0, 2] S8x2062x2046
  slices_S8x2062x2048_S8x2062x2_0_0_0 : S8x2062x2048.Slices ![0, 0, 0] S8x2062x2
  concatenates_S8x2062x2046_S8x2062x2_S8x2062x2048_d2 : Shape.Concatenates [S8x2062x2046, S8x2062x2] S8x2062x2048 2
  slices_S8x2062x2048_S8x2055x2048_0_5_0 : S8x2062x2048.Slices ![0, 5, 0] S8x2055x2048
  slices_S8x2062x2048_S8x2062x2047_0_0_1 : S8x2062x2048.Slices ![0, 0, 1] S8x2062x2047
  slices_S8x2062x2048_S8x2062x1_0_0_0 : S8x2062x2048.Slices ![0, 0, 0] S8x2062x1
  concatenates_S8x2062x2047_S8x2062x1_S8x2062x2048_d2 : Shape.Concatenates [S8x2062x2047, S8x2062x1] S8x2062x2048 2
  slices_S8x2062x2048_S8x2055x2048_0_6_0 : S8x2062x2048.Slices ![0, 6, 0] S8x2055x2048
  slices_S8x2062x2048_S8x2062x2048_0_0_0 : S8x2062x2048.Slices ![0, 0, 0] S8x2062x2048
  slices_S8x2062x2048_S8x2062x0_0_0_0 : S8x2062x2048.Slices ![0, 0, 0] S8x2062x0
  concatenates_S8x2062x2048_S8x2062x0_S8x2062x2048_d2 : Shape.Concatenates [S8x2062x2048, S8x2062x0] S8x2062x2048 2
  slices_S8x2062x2048_S8x2055x2048_0_7_0 : S8x2062x2048.Slices ![0, 7, 0] S8x2055x2048
  slices_S8x2055x2048_S8x2048x2048_0_0_0 : S8x2055x2048.Slices ![0, 0, 0] S8x2048x2048
  bcast_S_S8x2048x2048 : S_.BroadcastsInDim S8x2048x2048 (![] : Fin 0 → Fin S8x2048x2048.rank)
  dot_S8x2048x1024_S1024x2048_S8x2048x2048_2_0_01_1_n_n_wf : DotDims.WF S8x2048x1024 S1024x2048 S8x2048x2048 [2] [0] [0, 1] [1] [] []

variable [Facts₀]

def dot_S8x2048x1024_S1024x2048_S8x2048x2048_2_0_01_1_n_n : DotDims S8x2048x1024 S1024x2048 S8x2048x2048 where
  lhsContracting := [2]
  rhsContracting := [0]
  lhsNonContracting := [0, 1]
  rhsNonContracting := [1]
  lhsBatch := []
  rhsBatch := []
  wf := dot_S8x2048x1024_S1024x2048_S8x2048x2048_2_0_01_1_n_n_wf

class Facts : Prop extends Facts₀ where

variable [Facts]
-- ==== Proof.Spec.lean ====
/-
  The mathematics of the claim, with no program in sight.

  Inputs: x : [8, 2048, 1024], W : [1024, 2048], b : [2048], as extended reals.
  The dense projection is h[n, τ, f] = (Σ_k x[n, τ, k] · W[k, f]) + b[f].
  The shifted convolution adds eight taps: tap w of entry (n, τ, o) is h[n, τ - w, (o + w) mod 2048],
  the projection w steps back in time read w channels further round the 2048 channels, and is zero before time
  zero (the time axis is padded with zeros in front). The three results are
    y[n, τ, o] = tap 0 + tap 1 + … + tap 7,   a = tanh y,   z = 1 where a > 0, else 0.
  A sum of extended reals may be reordered and regrouped freely (addition on the extended reals is commutative
  and associative, infinities included), which is all that the two programs' orders of summation differ by.
-/
import Idealize.ShloMosaic.PureOps.Ideal
import Idealize.ShloMosaic.PureOps.Ideal.Laws
import Idealize.ShloMosaic.Lib.ValueIdx

noncomputable section

namespace Cert.ShiftConv

open Idealize.ShloMosaic Idealize.ShloMosaic.ValueIdx

abbrev SX : Shape := ⟨3, ![8, 2048, 1024]⟩
abbrev SW : Shape := ⟨2, ![1024, 2048]⟩
abbrev SB : Shape := ⟨1, ![2048]⟩
abbrev SY : Shape := ⟨3, ![8, 2048, 2048]⟩

variable (X : SX.Idx → EReal) (W : SW.Idx → EReal) (B : SB.Idx → EReal)

/-- The dense projection: row τ of batch n against column f of the weight, plus the bias at f. -/
def dense (n : Fin 8) (τ : Fin 2048) (f : Fin 2048) : EReal :=
  (∑ k : Fin 1024, X (ix3 n τ k) * W (ix2 k f)) + B (ix1 f)

/-- Channel o moved w places further, round the 2048 channels. -/
def chan (o : Fin 2048) (w : ℕ) : Fin 2048 := ⟨(o.val + w) % 2048, Nat.mod_lt _ (by norm_num)⟩

/-- Tap w at (n, τ, o): the projection w steps back in time, w channels further round; zero before time zero. -/
def tap (n : Fin 8) (τ : Fin 2048) (o : Fin 2048) (w : ℕ) : EReal :=
  if w ≤ τ.val then dense X W B n ⟨τ.val - w, lt_of_le_of_lt (Nat.sub_le _ _) τ.isLt⟩ (chan o w) else 0

/-- The eight taps added, tap 0 first. -/
def conv (n : Fin 8) (τ : Fin 2048) (o : Fin 2048) : EReal :=
  tap X W B n τ o 0 + tap X W B n τ o 1 + tap X W B n τ o 2 + tap X W B n τ o 3
    + tap X W B n τ o 4 + tap X W B n τ o 5 + tap X W B n τ o 6 + tap X W B n τ o 7

/-- The same eight taps added last first: the same extended real. -/
theorem conv_rev (n : Fin 8) (τ : Fin 2048) (o : Fin 2048) :
    tap X W B n τ o 7 + tap X W B n τ o 6 + tap X W B n τ o 5 + tap X W B n τ o 4
      + tap X W B n τ o 3 + tap X W B n τ o 2 + tap X W B n τ o 1 + tap X W B n τ o 0 = conv X W B n τ o := by
  unfold conv
  ac_rfl

/-- The first result: the convolution. -/
def Y : SY.Idx → EReal := fun i => conv X W B (i 0) (i 1) (i 2)
/-- The second: its hyperbolic tangent. -/
def A : SY.Idx → EReal := fun i => Ideal.tanh (Y X W B i)
/-- The third: one where the second is positive, zero elsewhere. -/
def Z : SY.Idx → EReal := fun i =>
  (((Ideal.cmp .ogt (A X W B i) (Ideal.ofBits .f32 0x00000000#32)).toNat : ℝ) : EReal)

theorem Y_ix3 (n : Fin 8) (τ : Fin 2048) (o : Fin 2048) : Y X W B (ix3 n τ o) = conv X W B n τ o := rfl

end Cert.ShiftConv

end
-- ==== Proof.RefIsSpec.lean ====
/-
  The reference program is the specification.

  The reference computes the dense projection h = x · W + b, pads its time axis with seven zeros at each end, and
  then, eight times over, moves the channels of the padded projection s places round (s = 7, 6, …, 0: the channels
  s … 2047 followed by the channels 0 … s - 1), keeps the 2055 rows that start at row 7 - s, and adds the result
  to an accumulator that starts at zero. Row τ of the piece kept for s is row τ + 7 - s of the padded projection,
  that is row τ - s of the projection when s ≤ τ and a padding zero otherwise, read at channel (o + s) mod 2048:
  the specification's tap s. The accumulator is therefore 0 + tap 7 + tap 6 + … + tap 0, the convolution with its
  terms in the reverse order; the first 2048 of the 2055 rows are the result, its hyperbolic tangent the second
  result, and the indicator of that being positive the third.
-/
import proofs.«167633_j52072183496865_2_alg».proof.Proof.Gen.ReferenceIdeal.Read
import proofs.«167633_j52072183496865_2_alg».proof.Proof.Spec
import Idealize.ShloMosaic.Lib.KernelVsHost
import Idealize.ShloMosaic.Lib.Pipeline.Value
import Idealize.ShloMosaic.Lib.ValueIdx

noncomputable section

namespace Cert.ShiftConv.Ref

open Cert.ReferenceIdeal Cert.ReferenceIdeal.Gen Cert.ReferenceIdeal.Read Idealize.ShloMosaic Idealize.ShloMosaic.ValueIdx

variable (x0 : (⟨S8x2048x1024, .f32⟩ : BufTy).Contents (Elt Ideal)) (x1 : (⟨S1024x2048, .f32⟩ : BufTy).Contents (Elt Ideal)) (x2 : (⟨S2048, .f32⟩ : BufTy).Contents (Elt Ideal))

/-! ## The dense projection and its padding -/

/-- The contraction's left operand is read at (n, t, k). -/
theorem lidx_eq (n : Fin 8) (t : Fin 2048) (f : Fin 2048) (k : Fin 1024) :
    lidx_main_v0 (ix3 n t f) k = ix3 n t k :=
  funext fun a => Fin.ext (by match a with | ⟨0, _⟩ => rfl | ⟨1, _⟩ => rfl | ⟨2, _⟩ => rfl)

/-- The contraction's right operand is read at (k, f). -/
theorem ridx_eq (n : Fin 8) (t : Fin 2048) (f : Fin 2048) (k : Fin 1024) :
    ridx_main_v0 (ix3 n t f) k = ix2 k f :=
  funext fun a => Fin.ext (by match a with | ⟨0, _⟩ => rfl | ⟨1, _⟩ => rfl)

/-- The bias, made a row and then the whole array, is read at f. -/
theorem bidx_eq (n : Fin 8) (t : Fin 2048) (f : Fin 2048) :
    idx_main_v1 (idx_main_v2 (ix3 n t f)) = ix1 f :=
  funext fun a => Fin.ext (by match a with | ⟨0, _⟩ => rfl)

/-- The product plus the bias, entry by entry, is the specification's dense projection. -/
theorem proj_apply (n : Fin 8) (t : Fin 2048) (f : Fin 2048) :
    val_main_v3 (F := Ideal) x0 x1 x2 (ix3 n t f) = dense x0 x1 x2 n t f := by
  rw [val_main_v3_apply, val_main_v0_apply, val_main_v2_apply, val_main_v1_apply, bidx_eq]
  simp only [lidx_eq, ridx_eq]
  rfl

/-- Rows 7 … 2054 of the padded projection are the projection's rows 0 … 2047. -/
theorem padded_inside (n : Fin 8) (s : Fin 2062) (f : Fin 2048) (t : Fin 2048) (hs : s.val = 7 + t.val) :
    val_main_v4 (F := Ideal) x0 x1 x2 (ix3 n s f) = dense x0 x1 x2 n t f := by
  unfold val_main_v4
  refine (pad_apply_of_inside _ _ _ _ _ pads_S8x2048x2048_S8x2062x2048_000_770_000 h_S_ (ix3 n s f) (ix3 n t f) ?_).trans
    (proj_apply x0 x1 x2 n t f)
  intro a
  match a with
  | ⟨0, _⟩ => show n.val = 0 + n.val * (0 + 1); omega
  | ⟨1, _⟩ => show s.val = 7 + t.val * (0 + 1); omega
  | ⟨2, _⟩ => show f.val = 0 + f.val * (0 + 1); omega

/-- Rows 0 … 6 of the padded projection are the padding value, the integer zero converted: zero. -/
theorem padded_low (n : Fin 8) (s : Fin 2062) (f : Fin 2048) (hs : s.val < 7) :
    val_main_v4 (F := Ideal) x0 x1 x2 (ix3 n s f) = 0 := by
  unfold val_main_v4
  refine (pad_apply_of_not_inside _ _ _ _ _ pads_S8x2048x2048_S8x2062x2048_000_770_000 h_S_ (ix3 n s f) (1 : Fin 3) ?_).trans ?_
  · intro hin
    have h1 : 7 ≤ s.val := hin.1
    omega
  · rw [val_main_call0_v0_apply, val_main_c_apply]
    exact sitofp_zero (φ := .f32)

/-- Row τ + 7 - w of the padded projection, at the channel w places round, is tap w of (n, τ, o). -/
theorem padded_tap (n : Fin 8) (τ : Fin 2048) (o : Fin 2048) (w : ℕ) (s : Fin 2062) (hs : s.val + w = τ.val + 7) :
    val_main_v4 (F := Ideal) x0 x1 x2 (ix3 n s (chan o w)) = tap x0 x1 x2 n τ o w := by
  unfold tap
  by_cases h : w ≤ τ.val
  · rw [if_pos h]
    refine padded_inside x0 x1 x2 n s (chan o w) _ ?_
    show s.val = 7 + (τ.val - w)
    omega
  · rw [if_neg h]
    exact padded_low x0 x1 x2 n s (chan o w) (by omega)

/-! ## The eight moves round the channels -/

/-- The channels moved 7 places round: the padded projection's channels 7 … 2047 followed by its channels 0 … 6,
    so that channel `o` of the result is channel `(o + 7) mod 2048` of the padded projection. -/
theorem rolled7 (n : Fin 8) (t : Fin 2062) (o : Fin 2048) :
    val_main_v6 (F := Ideal) x0 x1 x2 (ix3 n t o) = val_main_v4 (F := Ideal) x0 x1 x2 (ix3 n t (chan o 7)) := by
  unfold val_main_v6
  by_cases h : o.val < 2041
  · refine (concatenate_pair_apply_left (t := S8x2062x2048) (s₁ := S8x2062x2041) (s₂ := S8x2062x7) (2 : Fin 3) _ _
      concatenates_S8x2062x2041_S8x2062x7_S8x2062x2048_d2 (ix3 n t o) rfl (ix3 n t (⟨o.val, h⟩ : Fin 2041)) ?_).trans ?_
    · intro b
      match b with
      | ⟨0, _⟩ => rfl
      | ⟨1, _⟩ => rfl
      | ⟨2, _⟩ => rfl
    · rw [val_main_call1_v0_apply]
      refine congrArg _ (funext fun a => Fin.ext ?_)
      match a with
      | ⟨0, _⟩ => rfl
      | ⟨1, _⟩ => rfl
      | ⟨2, _⟩ => show 7 + o.val = (o.val + 7) % 2048; omega
  · refine (concatenate_pair_apply_right (t := S8x2062x2048) (s₁ := S8x2062x2041) (s₂ := S8x2062x7) (2 : Fin 3) _ _
      concatenates_S8x2062x2041_S8x2062x7_S8x2062x2048_d2 (ix3 n t o) rfl rfl (ix3 n t (⟨o.val - 2041, by omega⟩ : Fin 7)) ?_ ?_).trans ?_
    · intro b hb
      match b with
      | ⟨0, _⟩ => rfl
      | ⟨1, _⟩ => rfl
      | ⟨2, _⟩ => exact absurd rfl hb
    · show o.val - 2041 + 2041 = o.val; omega
    · rw [val_main_call1_v1_apply]
      refine congrArg _ (funext fun a => Fin.ext ?_)
      match a with
      | ⟨0, _⟩ => rfl
      | ⟨1, _⟩ => rfl
      | ⟨2, _⟩ => show o.val - 2041 = (o.val + 7) % 2048; omega

/-- The channels moved 6 places round: the padded projection's channels 6 … 2047 followed by its channels 0 … 5,
    so that channel `o` of the result is channel `(o + 6) mod 2048` of the padded projection. -/
theorem rolled6 (n : Fin 8) (t : Fin 2062) (o : Fin 2048) :
    val_main_v9 (F := Ideal) x0 x1 x2 (ix3 n t o) = val_main_v4 (F := Ideal) x0 x1 x2 (ix3 n t (chan o 6)) := by
  unfold val_main_v9
  by_cases h : o.val < 2042
  · refine (concatenate_pair_apply_left (t := S8x2062x2048) (s₁ := S8x2062x2042) (s₂ := S8x2062x6) (2 : Fin 3) _ _
      concatenates_S8x2062x2042_S8x2062x6_S8x2062x2048_d2 (ix3 n t o) rfl (ix3 n t (⟨o.val, h⟩ : Fin 2042)) ?_).trans ?_
    · intro b
      match b with
      | ⟨0, _⟩ => rfl
      | ⟨1, _⟩ => rfl
      | ⟨2, _⟩ => rfl
    · rw [val_main_call2_v0_apply]
      refine congrArg _ (funext fun a => Fin.ext ?_)
      match a with
      | ⟨0, _⟩ => rfl
      | ⟨1, _⟩ => rfl
      | ⟨2, _⟩ => show 6 + o.val = (o.val + 6) % 2048; omega
  · refine (concatenate_pair_apply_right (t := S8x2062x2048) (s₁ := S8x2062x2042) (s₂ := S8x2062x6) (2 : Fin 3) _ _
      concatenates_S8x2062x2042_S8x2062x6_S8x2062x2048_d2 (ix3 n t o) rfl rfl (ix3 n t (⟨o.val - 2042, by omega⟩ : Fin 6)) ?_ ?_).trans ?_
    · intro b hb
      match b with
      | ⟨0, _⟩ => rfl
      | ⟨1, _⟩ => rfl
      | ⟨2, _⟩ => exact absurd rfl hb
    · show o.val - 2042 + 2042 = o.val; omega
    · rw [val_main_call2_v1_apply]
      refine congrArg _ (funext fun a => Fin.ext ?_)
      match a with
      | ⟨0, _⟩ => rfl
      | ⟨1, _⟩ => rfl
      | ⟨2, _⟩ => show o.val - 2042 = (o.val + 6) % 2048; omega

/-- The channels moved 5 places round: the padded projection's channels 5 … 2047 followed by its channels 0 … 4,
    so that channel `o` of the result is channel `(o + 5) mod 2048` of the padded projection. -/
theorem rolled5 (n : Fin 8) (t : Fin 2062) (o : Fin 2048) :
    val_main_v12 (F := Ideal) x0 x1 x2 (ix3 n t o) = val_main_v4 (F := Ideal) x0 x1 x2 (ix3 n t (chan o 5)) := by
  unfold val_main_v12
  by_cases h : o.val < 2043
  · refine (concatenate_pair_apply_left (t := S8x2062x2048) (s₁ := S8x2062x2043) (s₂ := S8x2062x5) (2 : Fin 3) _ _
      concatenates_S8x2062x2043_S8x2062x5_S8x2062x2048_d2 (ix3 n t o) rfl (ix3 n t (⟨o.val, h⟩ : Fin 2043)) ?_).trans ?_
    · intro b
      match b with
      | ⟨0, _⟩ => rfl
      | ⟨1, _⟩ => rfl
      | ⟨2, _⟩ => rfl
    · rw [val_main_call3_v0_apply]
      refine congrArg _ (funext fun a => Fin.ext ?_)
      match a with
      | ⟨0, _⟩ => rfl
      | ⟨1, _⟩ => rfl
      | ⟨2, _⟩ => show 5 + o.val = (o.val + 5) % 2048; omega
  · refine (concatenate_pair_apply_right (t := S8x2062x2048) (s₁ := S8x2062x2043) (s₂ := S8x2062x5) (2 : Fin 3) _ _
      concatenates_S8x2062x2043_S8x2062x5_S8x2062x2048_d2 (ix3 n t o) rfl rfl (ix3 n t (⟨o.val - 2043, by omega⟩ : Fin 5)) ?_ ?_).trans ?_
    · intro b hb
      match b with
      | ⟨0, _⟩ => rfl
      | ⟨1, _⟩ => rfl
      | ⟨2, _⟩ => exact absurd rfl hb
    · show o.val - 2043 + 2043 = o.val; omega
    · rw [val_main_call3_v1_apply]
      refine congrArg _ (funext fun a => Fin.ext ?_)
      match a with
      | ⟨0, _⟩ => rfl
      | ⟨1, _⟩ => rfl
      | ⟨2, _⟩ => show o.val - 2043 = (o.val + 5) % 2048; omega

/-- The channels moved 4 places round: the padded projection's channels 4 … 2047 followed by its channels 0 … 3,
    so that channel `o` of the result is channel `(o + 4) mod 2048` of the padded projection. -/
theorem rolled4 (n : Fin 8) (t : Fin 2062) (o : Fin 2048) :
    val_main_v15 (F := Ideal) x0 x1 x2 (ix3 n t o) = val_main_v4 (F := Ideal) x0 x1 x2 (ix3 n t (chan o 4)) := by
  unfold val_main_v15
  by_cases h : o.val < 2044
  · refine (concatenate_pair_apply_left (t := S8x2062x2048) (s₁ := S8x2062x2044) (s₂ := S8x2062x4) (2 : Fin 3) _ _
      concatenates_S8x2062x2044_S8x2062x4_S8x2062x2048_d2 (ix3 n t o) rfl (ix3 n t (⟨o.val, h⟩ : Fin 2044)) ?_).trans ?_
    · intro b
      match b with
      | ⟨0, _⟩ => rfl
      | ⟨1, _⟩ => rfl
      | ⟨2, _⟩ => rfl
    · rw [val_main_call4_v0_apply]
      refine congrArg _ (funext fun a => Fin.ext ?_)
      match a with
      | ⟨0, _⟩ => rfl
      | ⟨1, _⟩ => rfl
      | ⟨2, _⟩ => show 4 + o.val = (o.val + 4) % 2048; omega
  · refine (concatenate_pair_apply_right (t := S8x2062x2048) (s₁ := S8x2062x2044) (s₂ := S8x2062x4) (2 : Fin 3) _ _
      concatenates_S8x2062x2044_S8x2062x4_S8x2062x2048_d2 (ix3 n t o) rfl rfl (ix3 n t (⟨o.val - 2044, by omega⟩ : Fin 4)) ?_ ?_).trans ?_
    · intro b hb
      match b with
      | ⟨0, _⟩ => rfl
      | ⟨1, _⟩ => rfl
      | ⟨2, _⟩ => exact absurd rfl hb
    · show o.val - 2044 + 2044 = o.val; omega
    · rw [val_main_call4_v1_apply]
      refine congrArg _ (funext fun a => Fin.ext ?_)
      match a with
      | ⟨0, _⟩ => rfl
      | ⟨1, _⟩ => rfl
      | ⟨2, _⟩ => show o.val - 2044 = (o.val + 4) % 2048; omega

/-- The channels moved 3 places round: the padded projection's channels 3 … 2047 followed by its channels 0 … 2,
    so that channel `o` of the result is channel `(o + 3) mod 2048` of the padded projection. -/
theorem rolled3 (n : Fin 8) (t : Fin 2062) (o : Fin 2048) :
    val_main_v18 (F := Ideal) x0 x1 x2 (ix3 n t o) = val_main_v4 (F := Ideal) x0 x1 x2 (ix3 n t (chan o 3)) := by
  unfold val_main_v18
  by_cases h : o.val < 2045
  · refine (concatenate_pair_apply_left (t := S8x2062x2048) (s₁ := S8x2062x2045) (s₂ := S8x2062x3) (2 : Fin 3) _ _
      concatenates_S8x2062x2045_S8x2062x3_S8x2062x2048_d2 (ix3 n t o) rfl (ix3 n t (⟨o.val, h⟩ : Fin 2045)) ?_).trans ?_
    · intro b
      match b with
      | ⟨0, _⟩ => rfl
      | ⟨1, _⟩ => rfl
      | ⟨2, _⟩ => rfl
    · rw [val_main_call5_v0_apply]
      refine congrArg _ (funext fun a => Fin.ext ?_)
      match a with
      | ⟨0, _⟩ => rfl
      | ⟨1, _⟩ => rfl
      | ⟨2, _⟩ => show 3 + o.val = (o.val + 3) % 2048; omega
  · refine (concatenate_pair_apply_right (t := S8x2062x2048) (s₁ := S8x2062x2045) (s₂ := S8x2062x3) (2 : Fin 3) _ _
      concatenates_S8x2062x2045_S8x2062x3_S8x2062x2048_d2 (ix3 n t o) rfl rfl (ix3 n t (⟨o.val - 2045, by omega⟩ : Fin 3)) ?_ ?_).trans ?_
    · intro b hb
      match b with
      | ⟨0, _⟩ => rfl
      | ⟨1, _⟩ => rfl
      | ⟨2, _⟩ => exact absurd rfl hb
    · show o.val - 2045 + 2045 = o.val; omega
    · rw [val_main_call5_v1_apply]
      refine congrArg _ (funext fun a => Fin.ext ?_)
      match a with
      | ⟨0, _⟩ => rfl
      | ⟨1, _⟩ => rfl
      | ⟨2, _⟩ => show o.val - 2045 = (o.val + 3) % 2048; omega

/-- The channels moved 2 places round: the padded projection's channels 2 … 2047 followed by its channels 0 … 1,
    so that channel `o` of the result is channel `(o + 2) mod 2048` of the padded projection. -/
theorem rolled2 (n : Fin 8) (t : Fin 2062) (o : Fin 2048) :
    val_main_v21 (F := Ideal) x0 x1 x2 (ix3 n t o) = val_main_v4 (F := Ideal) x0 x1 x2 (ix3 n t (chan o 2)) := by
  unfold val_main_v21
  by_cases h : o.val < 2046
  · refine (concatenate_pair_apply_left (t := S8x2062x2048) (s₁ := S8x2062x2046) (s₂ := S8x2062x2) (2 : Fin 3) _ _
      concatenates_S8x2062x2046_S8x2062x2_S8x2062x2048_d2 (ix3 n t o) rfl (ix3 n t (⟨o.val, h⟩ : Fin 2046)) ?_).trans ?_
    · intro b
      match b with
      | ⟨0, _⟩ => rfl
      | ⟨1, _⟩ => rfl
      | ⟨2, _⟩ => rfl
    · rw [val_main_call6_v0_apply]
      refine congrArg _ (funext fun a => Fin.ext ?_)
      match a with
      | ⟨0, _⟩ => rfl
      | ⟨1, _⟩ => rfl
      | ⟨2, _⟩ => show 2 + o.val = (o.val + 2) % 2048; omega
  · refine (concatenate_pair_apply_right (t := S8x2062x2048) (s₁ := S8x2062x2046) (s₂ := S8x2062x2) (2 : Fin 3) _ _
      concatenates_S8x2062x2046_S8x2062x2_S8x2062x2048_d2 (ix3 n t o) rfl rfl (ix3 n t (⟨o.val - 2046, by omega⟩ : Fin 2)) ?_ ?_).trans ?_
    · intro b hb
      match b with
      | ⟨0, _⟩ => rfl
      | ⟨1, _⟩ => rfl
      | ⟨2, _⟩ => exact absurd rfl hb
    · show o.val - 2046 + 2046 = o.val; omega
    · rw [val_main_call6_v1_apply]
      refine congrArg _ (funext fun a => Fin.ext ?_)
      match a with
      | ⟨0, _⟩ => rfl
      | ⟨1, _⟩ => rfl
      | ⟨2, _⟩ => show o.val - 2046 = (o.val + 2) % 2048; omega

/-- The channels moved 1 place round: the padded projection's channels 1 … 2047 followed by its channels 0 … 0,
    so that channel `o` of the result is channel `(o + 1) mod 2048` of the padded projection. -/
theorem rolled1 (n : Fin 8) (t : Fin 2062) (o : Fin 2048) :
    val_main_v24 (F := Ideal) x0 x1 x2 (ix3 n t o) = val_main_v4 (F := Ideal) x0 x1 x2 (ix3 n t (chan o 1)) := by
  unfold val_main_v24
  by_cases h : o.val < 2047
  · refine (concatenate_pair_apply_left (t := S8x2062x2048) (s₁ := S8x2062x2047) (s₂ := S8x2062x1) (2 : Fin 3) _ _
      concatenates_S8x2062x2047_S8x2062x1_S8x2062x2048_d2 (ix3 n t o) rfl (ix3 n t (⟨o.val, h⟩ : Fin 2047)) ?_).trans ?_
    · intro b
      match b with
      | ⟨0, _⟩ => rfl
      | ⟨1, _⟩ => rfl
      | ⟨2, _⟩ => rfl
    · rw [val_main_call7_v0_apply]
      refine congrArg _ (funext fun a => Fin.ext ?_)
      match a with
      | ⟨0, _⟩ => rfl
      | ⟨1, _⟩ => rfl
      | ⟨2, _⟩ => show 1 + o.val = (o.val + 1) % 2048; omega
  · refine (concatenate_pair_apply_right (t := S8x2062x2048) (s₁ := S8x2062x2047) (s₂ := S8x2062x1) (2 : Fin 3) _ _
      concatenates_S8x2062x2047_S8x2062x1_S8x2062x2048_d2 (ix3 n t o) rfl rfl (ix3 n t (⟨o.val - 2047, by omega⟩ : Fin 1)) ?_ ?_).trans ?_
    · intro b hb
      match b with
      | ⟨0, _⟩ => rfl
      | ⟨1, _⟩ => rfl
      | ⟨2, _⟩ => exact absurd rfl hb
    · show o.val - 2047 + 2047 = o.val; omega
    · rw [val_main_call7_v1_apply]
      refine congrArg _ (funext fun a => Fin.ext ?_)
      match a with
      | ⟨0, _⟩ => rfl
      | ⟨1, _⟩ => rfl
      | ⟨2, _⟩ => show o.val - 2047 = (o.val + 1) % 2048; omega

/-- No move at all: the whole padded projection followed by an empty piece, so every channel is read in the first piece. -/
theorem rolled0 (n : Fin 8) (t : Fin 2062) (o : Fin 2048) :
    val_main_v27 (F := Ideal) x0 x1 x2 (ix3 n t o) = val_main_v4 (F := Ideal) x0 x1 x2 (ix3 n t (chan o 0)) := by
  unfold val_main_v27
  refine (concatenate_pair_apply_left (t := S8x2062x2048) (s₁ := S8x2062x2048) (s₂ := S8x2062x0) (2 : Fin 3) _ _
    concatenates_S8x2062x2048_S8x2062x0_S8x2062x2048_d2 (ix3 n t o) rfl (ix3 n t o) ?_).trans ?_
  · intro b
    match b with
    | ⟨0, _⟩ => rfl
    | ⟨1, _⟩ => rfl
    | ⟨2, _⟩ => rfl
  · rw [val_main_call8_v0_apply]
    refine congrArg _ (funext fun a => Fin.ext ?_)
    match a with
    | ⟨0, _⟩ => rfl
    | ⟨1, _⟩ => rfl
    | ⟨2, _⟩ => show o.val = (o.val + 0) % 2048; omega

/-! ## The eight terms at a row of the result -/

/-- The term added first: rows 0 … 2054 of the projection moved 7 channels round; at row τ it is tap 7. -/
theorem term0 (n : Fin 8) (τ : Fin 2048) (o : Fin 2048) :
    val_main_v7 (F := Ideal) x0 x1 x2 (idx_main_v30 (ix3 n τ o)) = tap x0 x1 x2 n τ o 7 := by
  rw [val_main_v7_apply,
    show idx_main_v7 (idx_main_v30 (ix3 n τ o)) = ix3 n (⟨τ.val, by omega⟩ : Fin 2062) o from
      funext fun a => Fin.ext (by match a with | ⟨0, _⟩ => rfl | ⟨1, _⟩ => rfl | ⟨2, _⟩ => rfl),
    rolled7]
  exact padded_tap x0 x1 x2 n τ o 7 _ (by show τ.val + 7 = τ.val + 7; omega)

/-- The term added second: rows 1 … 2055 of the projection moved 6 channels round; at row τ it is tap 6. -/
theorem term1 (n : Fin 8) (τ : Fin 2048) (o : Fin 2048) :
    val_main_v10 (F := Ideal) x0 x1 x2 (idx_main_v30 (ix3 n τ o)) = tap x0 x1 x2 n τ o 6 := by
  rw [val_main_v10_apply,
    show idx_main_v10 (idx_main_v30 (ix3 n τ o)) = ix3 n (⟨1 + τ.val, by omega⟩ : Fin 2062) o from
      funext fun a => Fin.ext (by match a with | ⟨0, _⟩ => rfl | ⟨1, _⟩ => rfl | ⟨2, _⟩ => rfl),
    rolled6]
  exact padded_tap x0 x1 x2 n τ o 6 _ (by show 1 + τ.val + 6 = τ.val + 7; omega)

/-- The term added third: rows 2 … 2056 of the projection moved 5 channels round; at row τ it is tap 5. -/
theorem term2 (n : Fin 8) (τ : Fin 2048) (o : Fin 2048) :
    val_main_v13 (F := Ideal) x0 x1 x2 (idx_main_v30 (ix3 n τ o)) = tap x0 x1 x2 n τ o 5 := by
  rw [val_main_v13_apply,
    show idx_main_v13 (idx_main_v30 (ix3 n τ o)) = ix3 n (⟨2 + τ.val, by omega⟩ : Fin 2062) o from
      funext fun a => Fin.ext (by match a with | ⟨0, _⟩ => rfl | ⟨1, _⟩ => rfl | ⟨2, _⟩ => rfl),
    rolled5]
  exact padded_tap x0 x1 x2 n τ o 5 _ (by show 2 + τ.val + 5 = τ.val + 7; omega)

/-- The term added fourth: rows 3 … 2057 of the projection moved 4 channels round; at row τ it is tap 4. -/
theorem term3 (n : Fin 8) (τ : Fin 2048) (o : Fin 2048) :
    val_main_v16 (F := Ideal) x0 x1 x2 (idx_main_v30 (ix3 n τ o)) = tap x0 x1 x2 n τ o 4 := by
  rw [val_main_v16_apply,
    show idx_main_v16 (idx_main_v30 (ix3 n τ o)) = ix3 n (⟨3 + τ.val, by omega⟩ : Fin 2062) o from
      funext fun a => Fin.ext (by match a with | ⟨0, _⟩ => rfl | ⟨1, _⟩ => rfl | ⟨2, _⟩ => rfl),
    rolled4]
  exact padded_tap x0 x1 x2 n τ o 4 _ (by show 3 + τ.val + 4 = τ.val + 7; omega)

/-- The term added fifth: rows 4 … 2058 of the projection moved 3 channels round; at row τ it is tap 3. -/
theorem term4 (n : Fin 8) (τ : Fin 2048) (o : Fin 2048) :
    val_main_v19 (F := Ideal) x0 x1 x2 (idx_main_v30 (ix3 n τ o)) = tap x0 x1 x2 n τ o 3 := by
  rw [val_main_v19_apply,
    show idx_main_v19 (idx_main_v30 (ix3 n τ o)) = ix3 n (⟨4 + τ.val, by omega⟩ : Fin 2062) o from
      funext fun a => Fin.ext (by match a with | ⟨0, _⟩ => rfl | ⟨1, _⟩ => rfl | ⟨2, _⟩ => rfl),
    rolled3]
  exact padded_tap x0 x1 x2 n τ o 3 _ (by show 4 + τ.val + 3 = τ.val + 7; omega)

/-- The term added sixth: rows 5 … 2059 of the projection moved 2 channels round; at row τ it is tap 2. -/
theorem term5 (n : Fin 8) (τ : Fin 2048) (o : Fin 2048) :
    val_main_v22 (F := Ideal) x0 x1 x2 (idx_main_v30 (ix3 n τ o)) = tap x0 x1 x2 n τ o 2 := by
  rw [val_main_v22_apply,
    show idx_main_v22 (idx_main_v30 (ix3 n τ o)) = ix3 n (⟨5 + τ.val, by omega⟩ : Fin 2062) o from
      funext fun a => Fin.ext (by match a with | ⟨0, _⟩ => rfl | ⟨1, _⟩ => rfl | ⟨2, _⟩ => rfl),
    rolled2]
  exact padded_tap x0 x1 x2 n τ o 2 _ (by show 5 + τ.val + 2 = τ.val + 7; omega)

/-- The term added seventh: rows 6 … 2060 of the projection moved 1 channel round; at row τ it is tap 1. -/
theorem term6 (n : Fin 8) (τ : Fin 2048) (o : Fin 2048) :
    val_main_v25 (F := Ideal) x0 x1 x2 (idx_main_v30 (ix3 n τ o)) = tap x0 x1 x2 n τ o 1 := by
  rw [val_main_v25_apply,
    show idx_main_v25 (idx_main_v30 (ix3 n τ o)) = ix3 n (⟨6 + τ.val, by omega⟩ : Fin 2062) o from
      funext fun a => Fin.ext (by match a with | ⟨0, _⟩ => rfl | ⟨1, _⟩ => rfl | ⟨2, _⟩ => rfl),
    rolled1]
  exact padded_tap x0 x1 x2 n τ o 1 _ (by show 6 + τ.val + 1 = τ.val + 7; omega)

/-- The term added eighth: rows 7 … 2061 of the projection moved 0 channels round; at row τ it is tap 0. -/
theorem term7 (n : Fin 8) (τ : Fin 2048) (o : Fin 2048) :
    val_main_v28 (F := Ideal) x0 x1 x2 (idx_main_v30 (ix3 n τ o)) = tap x0 x1 x2 n τ o 0 := by
  rw [val_main_v28_apply,
    show idx_main_v28 (idx_main_v30 (ix3 n τ o)) = ix3 n (⟨7 + τ.val, by omega⟩ : Fin 2062) o from
      funext fun a => Fin.ext (by match a with | ⟨0, _⟩ => rfl | ⟨1, _⟩ => rfl | ⟨2, _⟩ => rfl),
    rolled0]
  exact padded_tap x0 x1 x2 n τ o 0 _ (by show 7 + τ.val + 0 = τ.val + 7; omega)

/-! ## The three results -/

/-- The first result is the convolution: the accumulator's zero and the eight taps, last first. -/
theorem ref_y : val_main_v30 (F := Ideal) x0 x1 x2 = Y x0 x1 x2 := by
  funext i
  obtain ⟨n, τ, o, rfl⟩ : ∃ (n : Fin 8) (τ : Fin 2048) (o : Fin 2048), i = ix3 n τ o := ⟨i 0, i 1, i 2, eq_ix3 i⟩
  rw [Y_ix3, ← conv_rev, val_main_v30_apply, val_main_v29_apply, val_main_v26_apply, val_main_v23_apply,
    val_main_v20_apply, val_main_v17_apply, val_main_v14_apply, val_main_v11_apply, val_main_v8_apply,
    val_main_v5_apply, val_main_cst_apply, term0, term1, term2, term3, term4, term5, term6, term7]
  simp only [Ideal.addf_def, Ideal.ofBits_def]
  rw [Ideal.ofBits_zero_f32, zero_add]

/-- The second result is its hyperbolic tangent. -/
theorem ref_a : val_main_v31 (F := Ideal) x0 x1 x2 = A x0 x1 x2 := by
  funext i
  rw [val_main_v31_apply, ref_y]
  rfl

/-- The third result is one where the second is positive and zero elsewhere. -/
theorem ref_z : val_main_v34 (F := Ideal) x0 x1 x2 = Z x0 x1 x2 := by
  funext i
  rw [val_main_v34_apply, val_main_v33_apply, val_main_v32_apply, val_main_cst_0_apply, ref_a]
  rfl

end Cert.ShiftConv.Ref

end
-- ==== Proof.BodyMath.lean ====
/-
  The kernel body's arithmetic at the ideal values, read entry by entry.

  At one grid point the body holds a block x0 of 256 rows of x, the whole weight x1, the bias row x2 and the
  seven halo rows v13. It forms the dense block  d[j, f] = (Σ_k x0[0, j, k] · x1[k, f]) + x2[0, f],  stacks the
  halo on top of it (263 rows: row r is halo row r for r < 7 and block row r - 7 from there on), and adds eight
  taps: tap w of entry (j, o) is stacked row 7 - w + j read at channel (o + w) mod 2048, a rotation of the
  channels by 2048 - w places (by none for w = 0). It leaves the block's last seven rows as the next halo.
-/
import proofs.«167633_j52072183496865_2_alg».proof.Proof.Gen.KernelIdeal.Skeleton
import Idealize.ShloMosaic.Lib.KernelVsHost
import Idealize.ShloMosaic.Lib.ValueLayout
import Idealize.ShloMosaic.Lib.ValueIdx
import Idealize.ShloMosaic.Lib.Pipeline.Value
import Idealize.ShloMosaic.PureOps.Ideal.Laws
import proofs.«167633_j52072183496865_2_alg».proof.Proof.Spec

noncomputable section

namespace Cert.KernelIdeal.Body

open Cert.KernelIdeal Cert.KernelIdeal.Gen Idealize.ShloMosaic Idealize.ShloMosaic.ValueIdx

variable (x0 : Vec Ideal S1x256x1024 .f32) (x1 : Vec Ideal S1024x2048 .bf16) (x2 : Vec Ideal S1x2048 .f32)
  (v13 : Vec Ideal S7x2048 .f32)

/-! ## The matrix product's operand indices, coordinate by coordinate -/

theorem lhs_row (i : S256x2048.Idx) (q : dot_S256x1024_S1024x2048_S256x2048_1_0_0_1_n_n.contr.Idx) :
    (dot_S256x1024_S1024x2048_S256x2048_1_0_0_1_n_n.lhsIdx i q 0).val = (i 0).val := by
  unfold DotDims.lhsIdx
  rw [dif_neg (show ¬(0 : Fin S256x1024.rank) ∈ dot_S256x1024_S1024x2048_S256x2048_1_0_0_1_n_n.lhsBatch by decide),
    dif_pos (show (0 : Fin S256x1024.rank) ∈ dot_S256x1024_S1024x2048_S256x2048_1_0_0_1_n_n.lhsNonContracting by decide)]
  rfl
theorem lhs_contr (i : S256x2048.Idx) (q : dot_S256x1024_S1024x2048_S256x2048_1_0_0_1_n_n.contr.Idx) :
    (dot_S256x1024_S1024x2048_S256x2048_1_0_0_1_n_n.lhsIdx i q 1).val = (q ⟨0, by decide⟩).val :=
  dot_S256x1024_S1024x2048_S256x2048_1_0_0_1_n_n.lhsIdx_val_of_single rfl i q
theorem rhs_contr (i : S256x2048.Idx) (q : dot_S256x1024_S1024x2048_S256x2048_1_0_0_1_n_n.contr.Idx) :
    (dot_S256x1024_S1024x2048_S256x2048_1_0_0_1_n_n.rhsIdx i q 0).val = (q ⟨0, by decide⟩).val :=
  dot_S256x1024_S1024x2048_S256x2048_1_0_0_1_n_n.rhsIdx_val_of_single rfl i q
theorem rhs_col (i : S256x2048.Idx) (q : dot_S256x1024_S1024x2048_S256x2048_1_0_0_1_n_n.contr.Idx) :
    (dot_S256x1024_S1024x2048_S256x2048_1_0_0_1_n_n.rhsIdx i q 1).val = (i 1).val := by
  unfold DotDims.rhsIdx
  rw [dif_neg (show ¬(1 : Fin S1024x2048.rank) ∈ dot_S256x1024_S1024x2048_S256x2048_1_0_0_1_n_n.rhsBatch by decide),
    dif_pos (show (1 : Fin S1024x2048.rank) ∈ dot_S256x1024_S1024x2048_S256x2048_1_0_0_1_n_n.rhsNonContracting by decide)]
  rfl

/-- The dense block at (j, f): row j of the block against column f of the weight, plus the bias at f.
    (The weight arrives in a narrower float format and the block is narrowed before the product: at the ideal
    values a change of format is the identity.) -/
theorem dense_blk (j : Fin 256) (f : Fin 2048) :
    k0_pay8 x0 x1 x2 (ix2 j f) = (∑ k : Fin 1024, x0 (ix3 (0 : Fin 1) j k) * x1 (ix2 k f)) + x2 (ix2 (0 : Fin 1) f) := by
  unfold k0_pay8
  rw [addf_apply]
  congr 1
  · show FloatOps.matmul dot_S256x1024_S1024x2048_S256x2048_1_0_0_1_n_n none _ _ (constant S256x2048 .f32 0x00000000#32) (ix2 j f) = _
    rw [Ideal.matmul_constant_zero_apply,
      ← Equiv.sum_comp (contrEquiv1 dot_S256x1024_S1024x2048_S256x2048_1_0_0_1_n_n 1024 rfl rfl).symm]
    refine Finset.sum_congr rfl fun k _ => ?_
    have hk := contrEquiv1_symm_val dot_S256x1024_S1024x2048_S256x2048_1_0_0_1_n_n 1024 rfl rfl k
    have el : dot_S256x1024_S1024x2048_S256x2048_1_0_0_1_n_n.lhsIdx (ix2 j f)
        ((contrEquiv1 dot_S256x1024_S1024x2048_S256x2048_1_0_0_1_n_n 1024 rfl rfl).symm k) = ix2 j k :=
      funext fun a => Fin.ext (by
        match a with
        | ⟨0, _⟩ => exact lhs_row _ _
        | ⟨1, _⟩ => exact (lhs_contr _ _).trans hk)
    have er : dot_S256x1024_S1024x2048_S256x2048_1_0_0_1_n_n.rhsIdx (ix2 j f)
        ((contrEquiv1 dot_S256x1024_S1024x2048_S256x2048_1_0_0_1_n_n 1024 rfl rfl).symm k) = ix2 k f :=
      funext fun a => Fin.ext (by
        match a with
        | ⟨0, _⟩ => exact (rhs_contr _ _).trans hk
        | ⟨1, _⟩ => exact rhs_col _ _)
    rw [el, er, truncf_apply, shapeCast_1ab_ab_apply, shapeCast_self]
  · rw [broadcastTo_1b_ab_apply, shapeCast_self]

/-- The stacked rows: the halo on top, -/
theorem stack_halo (r : Fin 263) (f : Fin 2048) (hr : r.val < 7) :
    k0_pay9 x0 x1 x2 v13 (ix2 r f) = v13 (ix2 (⟨r.val, hr⟩ : Fin 7) f) := by
  unfold k0_pay9
  refine concatenate_pair_apply_left (0 : Fin 2) v13 (k0_pay8 x0 x1 x2) concatenates_S7x2048_S256x2048_S263x2048_d0
    (ix2 r f) rfl (ix2 (⟨r.val, hr⟩ : Fin 7) f) (fun b => ?_)
  match b with
  | ⟨0, _⟩ => rfl
  | ⟨1, _⟩ => rfl

/-- the dense block from row 7 on. -/
theorem stack_blk (r : Fin 263) (f : Fin 2048) (hr : 7 ≤ r.val) :
    k0_pay9 x0 x1 x2 v13 (ix2 r f) = k0_pay8 x0 x1 x2 (ix2 (⟨r.val - 7, by have := r.isLt; omega⟩ : Fin 256) f) := by
  unfold k0_pay9
  refine concatenate_pair_apply_right (0 : Fin 2) v13 (k0_pay8 x0 x1 x2) concatenates_S7x2048_S256x2048_S263x2048_d0
    (ix2 r f) rfl rfl (ix2 (⟨r.val - 7, by have := r.isLt; omega⟩ : Fin 256) f) (fun b hb => ?_) ?_
  · match b with
    | ⟨0, _⟩ => exact absurd rfl hb
    | ⟨1, _⟩ => rfl
  · show r.val - 7 + 7 = r.val
    omega

/-! ## One tap, the eight taps, and what is stored -/

/-- A cut of the stacked rows from row `off`, its channels rotated by `s` places, read at (j, o): stacked row
    `off + j` at channel (o + w) mod 2048, when rotating by `s` and by `-w` are the same rotation. -/
theorem tap_read (E : FVec Ideal S263x2048 .f32) (off : ℕ) (hS : S263x2048.Slices ![off, 0] S256x2048)
    (sb : BitVec 32) (s w : ℕ) (hsb : sb.toNat = s) (hs : s < 2048) (hw : w < 2048) (hsw : (s + w) % 2048 = 0)
    (j : Fin 256) (o : Fin 2048) (hoff : off + j.val < 263) :
    dynamicRotate 1 sb none (extractStridedSlice S256x2048 ![off, 0] E hS) rotates_S256x2048_d1 (ix2 j o)
      = E (ix2 (⟨off + j.val, hoff⟩ : Fin 263) (Cert.ShiftConv.chan o w)) := by
  rw [dynamicRotate_apply (1 : Fin 2) sb _ rotates_S256x2048_d1 (ix2 j o) (ix2 j (Cert.ShiftConv.chan o w)) (fun b => by
    match b with
    | ⟨0, _⟩ => rfl
    | ⟨1, _⟩ =>
      show (o.val + w) % 2048 = (o.val + 2048 - sb.toNat % 2048) % 2048
      have := o.isLt
      omega)]
  exact slice2_axis0_apply off E hS j _ ⟨off + j.val, hoff⟩ rfl

/-- The eight taps of the body at (j, o), tap 0 first: stacked row 7 - w + j at channel (o + w) mod 2048. -/
theorem taps_blk (j : Fin 256) (o : Fin 2048) :
    k0_pay1 (k0_pay9 x0 x1 x2 v13) (k0_pay10 x0 x1 x2 v13) (ix2 j o)
      = k0_pay9 x0 x1 x2 v13 (ix2 (⟨7 + j.val, by omega⟩ : Fin 263) (Cert.ShiftConv.chan o 0))
        + k0_pay9 x0 x1 x2 v13 (ix2 (⟨6 + j.val, by omega⟩ : Fin 263) (Cert.ShiftConv.chan o 1))
        + k0_pay9 x0 x1 x2 v13 (ix2 (⟨5 + j.val, by omega⟩ : Fin 263) (Cert.ShiftConv.chan o 2))
        + k0_pay9 x0 x1 x2 v13 (ix2 (⟨4 + j.val, by omega⟩ : Fin 263) (Cert.ShiftConv.chan o 3))
        + k0_pay9 x0 x1 x2 v13 (ix2 (⟨3 + j.val, by omega⟩ : Fin 263) (Cert.ShiftConv.chan o 4))
        + k0_pay9 x0 x1 x2 v13 (ix2 (⟨2 + j.val, by omega⟩ : Fin 263) (Cert.ShiftConv.chan o 5))
        + k0_pay9 x0 x1 x2 v13 (ix2 (⟨1 + j.val, by omega⟩ : Fin 263) (Cert.ShiftConv.chan o 6))
        + k0_pay9 x0 x1 x2 v13 (ix2 (⟨0 + j.val, by omega⟩ : Fin 263) (Cert.ShiftConv.chan o 7)) := by
  unfold k0_pay1 k0_pay10
  simp only [addf_apply, broadcast_apply]
  rw [tap_read _ 7 _ 0#32 0 0 rfl (by norm_num) (by norm_num) (by norm_num) j o (by omega),
    tap_read _ 6 _ 2047#32 2047 1 rfl (by norm_num) (by norm_num) (by norm_num) j o (by omega),
    tap_read _ 5 _ 2046#32 2046 2 rfl (by norm_num) (by norm_num) (by norm_num) j o (by omega),
    tap_read _ 4 _ 2045#32 2045 3 rfl (by norm_num) (by norm_num) (by norm_num) j o (by omega),
    tap_read _ 3 _ 2044#32 2044 4 rfl (by norm_num) (by norm_num) (by norm_num) j o (by omega),
    tap_read _ 2 _ 2043#32 2043 5 rfl (by norm_num) (by norm_num) (by norm_num) j o (by omega),
    tap_read _ 1 _ 2042#32 2042 6 rfl (by norm_num) (by norm_num) (by norm_num) j o (by omega),
    tap_read _ 0 _ 2041#32 2041 7 rfl (by norm_num) (by norm_num) (by norm_num) j o (by omega)]
  rw [Ideal.ofBits_def, Ideal.ofBits_zero_f32, zero_add]

/-- The three stores' payloads at (0, j, o): the eight-tap sum, its hyperbolic tangent, and one where that is
    positive, zero elsewhere (a comparison's bit widened to a word and converted signed is the bit converted
    unsigned). -/
theorem store_y (v14 : FVec Ideal S263x2048 .f32) (v36 : FVec Ideal S256x2048 .f32) (j : Fin 256) (o : Fin 2048) :
    k0_pay3 v14 v36 (ix3 (0 : Fin 1) j o) = k0_pay1 v14 v36 (ix2 j o) := by
  unfold k0_pay3
  exact shapeCast_ab_1ab_apply _ _ _ _ _

theorem store_a (v14 : FVec Ideal S263x2048 .f32) (v36 : FVec Ideal S256x2048 .f32) (j : Fin 256) (o : Fin 2048) :
    k0_pay4 v14 v36 (ix3 (0 : Fin 1) j o) = Ideal.tanh (k0_pay1 v14 v36 (ix2 j o)) := by
  unfold k0_pay4
  rw [shapeCast_ab_1ab_apply]
  rfl

theorem store_z (v14 : FVec Ideal S263x2048 .f32) (v36 : FVec Ideal S256x2048 .f32) (j : Fin 256) (o : Fin 2048) :
    k0_pay5 v14 v36 (ix3 (0 : Fin 1) j o)
      = (((Ideal.cmp .ogt (Ideal.tanh (k0_pay1 v14 v36 (ix2 j o))) (Ideal.ofBits .f32 0x00000000#32)).toNat : ℝ) : EReal) := by
  unfold k0_pay5
  rw [shapeCast_ab_1ab_apply, sitofp_extui_eq_uitofp]
  rfl

/-- The rows kept for the next time step: the dense block's last seven. -/
theorem next_halo (r : Fin 7) (f : Fin 2048) :
    k0_pay6 (k0_pay8 x0 x1 x2) (ix2 r f) = k0_pay8 x0 x1 x2 (ix2 (⟨249 + r.val, by omega⟩ : Fin 256) f) := by
  unfold k0_pay6
  rw [shapeCast_self]
  exact slice2_axis0_apply 249 _ _ r f ⟨249 + r.val, by omega⟩ rfl

/-- The zero rows a batch's first time step starts from. -/
theorem zero_rows (y : S8x2048.Idx) : k0_pay7 (F := Ideal) y = 0 := by
  unfold k0_pay7
  rw [shapeCast_self, broadcast_apply, Ideal.ofBits_def, Ideal.ofBits_zero_f32]

/-! ## The body against the specification -/

open Cert.ShiftConv in
/-- At the grid point of batch n and time tile l — x0 rows 256 l … 256 l + 255 of batch n of X, x1 the weight,
    x2 the bias, the halo the seven projected rows before the tile (zero at the first tile) — the eight-tap sum
    at (j, o) is the convolution at (n, 256 l + j, o). -/
theorem conv_point (X : SX.Idx → EReal) (W : SW.Idx → EReal) (B : SB.Idx → EReal) (n : Fin 8) (l : Fin 8)
    (hx0 : ∀ (j : Fin 256) (k : Fin 1024), x0 (ix3 (0 : Fin 1) j k) = X (ix3 n (⟨256 * l.val + j.val, by omega⟩ : Fin 2048) k))
    (hx1 : ∀ (k : Fin 1024) (f : Fin 2048), x1 (ix2 k f) = W (ix2 k f))
    (hx2 : ∀ f : Fin 2048, x2 (ix2 (0 : Fin 1) f) = B (ix1 f))
    (hv13 : ∀ (r : Fin 7) (f : Fin 2048), v13 (ix2 r f)
      = if l.val = 0 then 0 else dense X W B n (⟨256 * l.val + r.val - 7, by omega⟩ : Fin 2048) f)
    (j : Fin 256) (o : Fin 2048) :
    k0_pay1 (k0_pay9 x0 x1 x2 v13) (k0_pay10 x0 x1 x2 v13) (ix2 j o)
      = conv X W B n (⟨256 * l.val + j.val, by omega⟩ : Fin 2048) o := by
  have hd : ∀ (q : Fin 256) (f : Fin 2048), k0_pay8 x0 x1 x2 (ix2 q f)
      = dense X W B n (⟨256 * l.val + q.val, by omega⟩ : Fin 2048) f := fun q f => by
    rw [dense_blk, hx2]
    unfold dense
    congr 1
    exact Finset.sum_congr rfl fun k _ => by rw [hx0, hx1]
  have ht : ∀ (w : ℕ) (hw : w ≤ 7) (hb : 7 - w + j.val < 263),
      k0_pay9 x0 x1 x2 v13 (ix2 (⟨7 - w + j.val, hb⟩ : Fin 263) (chan o w))
        = tap X W B n (⟨256 * l.val + j.val, by omega⟩ : Fin 2048) o w := fun w hw hb => by
    unfold tap
    by_cases hjw : w ≤ j.val
    · rw [stack_blk _ _ _ _ _ _ (by show 7 ≤ 7 - w + j.val; omega), hd, if_pos (by show w ≤ 256 * l.val + j.val; omega)]
      exact congrArg (fun a => dense X W B n a (chan o w)) (Fin.ext (by show 256 * l.val + (7 - w + j.val - 7) = 256 * l.val + j.val - w; omega))
    · rw [stack_halo _ _ _ _ _ _ (by show 7 - w + j.val < 7; omega), hv13]
      by_cases hl : l.val = 0
      · rw [if_pos hl, if_neg (by show ¬ w ≤ 256 * l.val + j.val; omega)]
      · rw [if_neg hl, if_pos (by show w ≤ 256 * l.val + j.val; omega)]
        exact congrArg (fun a => dense X W B n a (chan o w)) (Fin.ext (by show 256 * l.val + (7 - w + j.val) - 7 = 256 * l.val + j.val - w; omega))
  rw [taps_blk]
  unfold conv
  rw [← ht 0 (by omega) (by omega), ← ht 1 (by omega) (by omega), ← ht 2 (by omega) (by omega), ← ht 3 (by omega) (by omega),
    ← ht 4 (by omega) (by omega), ← ht 5 (by omega) (by omega), ← ht 6 (by omega) (by omega), ← ht 7 (by omega) (by omega)]

open Cert.ShiftConv in
/-- The dense block of the point of batch n and tile l is rows 256 l … 256 l + 255 of the projection. -/
theorem dense_point (X : SX.Idx → EReal) (W : SW.Idx → EReal) (B : SB.Idx → EReal) (n : Fin 8) (l : Fin 8)
    (hx0 : ∀ (j : Fin 256) (k : Fin 1024), x0 (ix3 (0 : Fin 1) j k) = X (ix3 n (⟨256 * l.val + j.val, by omega⟩ : Fin 2048) k))
    (hx1 : ∀ (k : Fin 1024) (f : Fin 2048), x1 (ix2 k f) = W (ix2 k f))
    (hx2 : ∀ f : Fin 2048, x2 (ix2 (0 : Fin 1) f) = B (ix1 f)) (q : Fin 256) (f : Fin 2048) :
    k0_pay8 x0 x1 x2 (ix2 q f) = dense X W B n (⟨256 * l.val + q.val, by omega⟩ : Fin 2048) f := by
  rw [dense_blk, hx2]
  unfold dense
  congr 1
  exact Finset.sum_congr rfl fun k _ => by rw [hx0, hx1]

open Cert.ShiftConv in
/-- The three stored blocks of that point, at (u, j, o), are the three results at (n, 256 l + j, o). -/
theorem block_y (X : SX.Idx → EReal) (W : SW.Idx → EReal) (B : SB.Idx → EReal) (n : Fin 8) (l : Fin 8)
    (hx0 : ∀ (j : Fin 256) (k : Fin 1024), x0 (ix3 (0 : Fin 1) j k) = X (ix3 n (⟨256 * l.val + j.val, by omega⟩ : Fin 2048) k))
    (hx1 : ∀ (k : Fin 1024) (f : Fin 2048), x1 (ix2 k f) = W (ix2 k f))
    (hx2 : ∀ f : Fin 2048, x2 (ix2 (0 : Fin 1) f) = B (ix1 f))
    (hv13 : ∀ (r : Fin 7) (f : Fin 2048), v13 (ix2 r f)
      = if l.val = 0 then 0 else dense X W B n (⟨256 * l.val + r.val - 7, by omega⟩ : Fin 2048) f)
    (u : Fin 1) (j : Fin 256) (o : Fin 2048) :
    k0_pay3 (k0_pay9 x0 x1 x2 v13) (k0_pay10 x0 x1 x2 v13) (ix3 u j o)
      = Y X W B (ix3 n (⟨256 * l.val + j.val, by omega⟩ : Fin 2048) o) := by
  obtain rfl : u = 0 := Subsingleton.elim _ _
  rw [store_y, conv_point x0 x1 x2 v13 X W B n l hx0 hx1 hx2 hv13, Y_ix3]

open Cert.ShiftConv in
theorem block_a (X : SX.Idx → EReal) (W : SW.Idx → EReal) (B : SB.Idx → EReal) (n : Fin 8) (l : Fin 8)
    (hx0 : ∀ (j : Fin 256) (k : Fin 1024), x0 (ix3 (0 : Fin 1) j k) = X (ix3 n (⟨256 * l.val + j.val, by omega⟩ : Fin 2048) k))
    (hx1 : ∀ (k : Fin 1024) (f : Fin 2048), x1 (ix2 k f) = W (ix2 k f))
    (hx2 : ∀ f : Fin 2048, x2 (ix2 (0 : Fin 1) f) = B (ix1 f))
    (hv13 : ∀ (r : Fin 7) (f : Fin 2048), v13 (ix2 r f)
      = if l.val = 0 then 0 else dense X W B n (⟨256 * l.val + r.val - 7, by omega⟩ : Fin 2048) f)
    (u : Fin 1) (j : Fin 256) (o : Fin 2048) :
    k0_pay4 (k0_pay9 x0 x1 x2 v13) (k0_pay10 x0 x1 x2 v13) (ix3 u j o)
      = A X W B (ix3 n (⟨256 * l.val + j.val, by omega⟩ : Fin 2048) o) := by
  obtain rfl : u = 0 := Subsingleton.elim _ _
  rw [store_a, conv_point x0 x1 x2 v13 X W B n l hx0 hx1 hx2 hv13]
  rfl

open Cert.ShiftConv in
theorem block_z (X : SX.Idx → EReal) (W : SW.Idx → EReal) (B : SB.Idx → EReal) (n : Fin 8) (l : Fin 8)
    (hx0 : ∀ (j : Fin 256) (k : Fin 1024), x0 (ix3 (0 : Fin 1) j k) = X (ix3 n (⟨256 * l.val + j.val, by omega⟩ : Fin 2048) k))
    (hx1 : ∀ (k : Fin 1024) (f : Fin 2048), x1 (ix2 k f) = W (ix2 k f))
    (hx2 : ∀ f : Fin 2048, x2 (ix2 (0 : Fin 1) f) = B (ix1 f))
    (hv13 : ∀ (r : Fin 7) (f : Fin 2048), v13 (ix2 r f)
      = if l.val = 0 then 0 else dense X W B n (⟨256 * l.val + r.val - 7, by omega⟩ : Fin 2048) f)
    (u : Fin 1) (j : Fin 256) (o : Fin 2048) :
    k0_pay5 (k0_pay9 x0 x1 x2 v13) (k0_pay10 x0 x1 x2 v13) (ix3 u j o)
      = Z X W B (ix3 n (⟨256 * l.val + j.val, by omega⟩ : Fin 2048) o) := by
  obtain rfl : u = 0 := Subsingleton.elim _ _
  rw [store_z, conv_point x0 x1 x2 v13 X W B n l hx0 hx1 hx2 hv13]
  rfl

end Cert.KernelIdeal.Body
end
-- ==== Proof.Pieces.lean ====
/-
  What one run of the kernel body leaves behind, in each of its two cases, for any float values.

  The first time tile of a batch (case A) clears the carried rows before anything else, so the halo it stacks on
  its block is seven rows of the zero it has just stored; every other tile (case B) stacks the first seven rows of
  what the tile before left. In both cases each of the three output blocks is one store of the whole block, and
  the carried rows end with their first seven overwritten by the last seven rows of the tile's dense block, so that
  the halo the NEXT tile reads is those seven rows, whatever the carried rows held before.
-/
import proofs.«167633_j52072183496865_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A load of any rectangle of a buffer that one store has just filled whole reads that store's payload there. -/
theorem readCov_of_whole_store {Val : EltTy → Type} [∀ e, Nonempty (Val e)] {sig : RefSig} {κ : Kind} {sp : Space} {S : Shape} {e : EltTy}
    (v : View sig κ sp S e) {off : Fin S.rank → Nat} (h : off = fun _ => 0) (inb : ∀ a, off a + S.size a ≤ S.size a)
    (w : S.Idx → Val e) (r : Rect S) :
    v.readCov [(⟨Rect.unit off S.size inb, w⟩ : View.Piece Val S e)] r.toLoadRect = View.ld w r := by
  rw [View.readCov_eq_canon_ld _ _ _ (fun y => ⟨_, List.mem_singleton_self _, View.mem_set_unit_zero h inb y⟩),
    View.canon_unit_zero h]

/-- The first seven of the eight carried rows. -/
abbrev top7 : Rect S8x2048 := Rect.unit ![0, 0] ![7, 2048] inb_S8x2048_S7x2048_0_0

/-- The halo of a batch's first tile: seven rows of the cleared carried rows. -/
abbrev clearedHalo : Vec F S7x2048 .f32 := View.ld (k0_pay7 (F := F)) top7

/-! ## Case B: a later tile -/

theorem out_B_3 (c : Dev nD) (i : grid0.Coords) (a2 : Memref sig .tc .vmem S1x256x1024 .f32) (h2 : a2.IsWhole) (a3 : Memref sig .tc .vmem S1024x2048 .bf16) (h3 : a3.IsWhole) (a4 : Memref sig .tc .vmem S1x2048 .f32) (h4 : a4.IsWhole) (a5 : Memref sig .tc .vmem S1x256x2048 .f32) (h5 : a5.IsWhole) (a6 : Memref sig .tc .vmem S1x256x2048 .f32) (h6 : a6.IsWhole) (a7 : Memref sig .tc .vmem S1x256x2048 .f32) (h7 : a7.IsWhole) (a8 : Memref sig .tc .vmem S8x2048 .f32) (h8 : a8.IsWhole) (hc : ¬cond0_0 i)
    (x0 : Vec F S1x256x1024 .f32) (x1 : Vec F S1024x2048 .bf16) (x2 : Vec F S1x2048 .f32) (xs0 : Vec F S8x2048 .f32) :
    out0_B_3 c i a2 h2 a3 h3 a4 h4 a5 h5 a6 h6 a7 h7 a8 h8 hc x0 x1 x2 xs0
      = k0_pay3 (k0_pay9 x0 x1 x2 (View.ld xs0 top7)) (k0_pay10 x0 x1 x2 (View.ld xs0 top7)) := by
  unfold out0_B_3
  rw [View.read_writes_eq_canon _ _ _ (cover0_B_3 c i a2 h2 a3 h3 a4 h4 a5 h5 a6 h6 a7 h7 a8 h8 hc x0 x1 x2 xs0)]
  unfold kernelRun0_B
  dsimp only
  sl_unfold_words
  rw [View.canon_unit_zero (S := S1x256x2048) hz3]
  simp only [View.readAt_eq_ld, h2.read_unread, h3.read_unread, h4.read_unread, h8.read_unread,
    View.ld_unit_zero (S := S1x256x1024) hz3, View.ld_unit_zero (S := S1024x2048) hz2, View.ld_unit_zero (S := S1x2048) hz2]

theorem out_B_4 (c : Dev nD) (i : grid0.Coords) (a2 : Memref sig .tc .vmem S1x256x1024 .f32) (h2 : a2.IsWhole) (a3 : Memref sig .tc .vmem S1024x2048 .bf16) (h3 : a3.IsWhole) (a4 : Memref sig .tc .vmem S1x2048 .f32) (h4 : a4.IsWhole) (a5 : Memref sig .tc .vmem S1x256x2048 .f32) (h5 : a5.IsWhole) (a6 : Memref sig .tc .vmem S1x256x2048 .f32) (h6 : a6.IsWhole) (a7 : Memref sig .tc .vmem S1x256x2048 .f32) (h7 : a7.IsWhole) (a8 : Memref sig .tc .vmem S8x2048 .f32) (h8 : a8.IsWhole) (hc : ¬cond0_0 i)
    (x0 : Vec F S1x256x1024 .f32) (x1 : Vec F S1024x2048 .bf16) (x2 : Vec F S1x2048 .f32) (xs0 : Vec F S8x2048 .f32) :
    out0_B_4 c i a2 h2 a3 h3 a4 h4 a5 h5 a6 h6 a7 h7 a8 h8 hc x0 x1 x2 xs0
      = k0_pay4 (k0_pay9 x0 x1 x2 (View.ld xs0 top7)) (k0_pay10 x0 x1 x2 (View.ld xs0 top7)) := by
  unfold out0_B_4
  rw [View.read_writes_eq_canon _ _ _ (cover0_B_4 c i a2 h2 a3 h3 a4 h4 a5 h5 a6 h6 a7 h7 a8 h8 hc x0 x1 x2 xs0)]
  unfold kernelRun0_B
  dsimp only
  sl_unfold_words
  rw [View.canon_unit_zero (S := S1x256x2048) hz3]
  simp only [View.readAt_eq_ld, h2.read_unread, h3.read_unread, h4.read_unread, h8.read_unread,
    View.ld_unit_zero (S := S1x256x1024) hz3, View.ld_unit_zero (S := S1024x2048) hz2, View.ld_unit_zero (S := S1x2048) hz2]

theorem out_B_5 (c : Dev nD) (i : grid0.Coords) (a2 : Memref sig .tc .vmem S1x256x1024 .f32) (h2 : a2.IsWhole) (a3 : Memref sig .tc .vmem S1024x2048 .bf16) (h3 : a3.IsWhole) (a4 : Memref sig .tc .vmem S1x2048 .f32) (h4 : a4.IsWhole) (a5 : Memref sig .tc .vmem S1x256x2048 .f32) (h5 : a5.IsWhole) (a6 : Memref sig .tc .vmem S1x256x2048 .f32) (h6 : a6.IsWhole) (a7 : Memref sig .tc .vmem S1x256x2048 .f32) (h7 : a7.IsWhole) (a8 : Memref sig .tc .vmem S8x2048 .f32) (h8 : a8.IsWhole) (hc : ¬cond0_0 i)
    (x0 : Vec F S1x256x1024 .f32) (x1 : Vec F S1024x2048 .bf16) (x2 : Vec F S1x2048 .f32) (xs0 : Vec F S8x2048 .f32) :
    out0_B_5 c i a2 h2 a3 h3 a4 h4 a5 h5 a6 h6 a7 h7 a8 h8 hc x0 x1 x2 xs0
      = k0_pay5 (k0_pay9 x0 x1 x2 (View.ld xs0 top7)) (k0_pay10 x0 x1 x2 (View.ld xs0 top7)) := by
  unfold out0_B_5
  rw [View.read_writes_eq_canon _ _ _ (cover0_B_5 c i a2 h2 a3 h3 a4 h4 a5 h5 a6 h6 a7 h7 a8 h8 hc x0 x1 x2 xs0)]
  unfold kernelRun0_B
  dsimp only
  sl_unfold_words
  rw [View.canon_unit_zero (S := S1x256x2048) hz3]
  simp only [View.readAt_eq_ld, h2.read_unread, h3.read_unread, h4.read_unread, h8.read_unread,
    View.ld_unit_zero (S := S1x256x1024) hz3, View.ld_unit_zero (S := S1024x2048) hz2, View.ld_unit_zero (S := S1x2048) hz2]

/-! ## Case A: a batch's first tile -/

theorem out_A_3 (c : Dev nD) (i : grid0.Coords) (a2 : Memref sig .tc .vmem S1x256x1024 .f32) (h2 : a2.IsWhole) (a3 : Memref sig .tc .vmem S1024x2048 .bf16) (h3 : a3.IsWhole) (a4 : Memref sig .tc .vmem S1x2048 .f32) (h4 : a4.IsWhole) (a5 : Memref sig .tc .vmem S1x256x2048 .f32) (h5 : a5.IsWhole) (a6 : Memref sig .tc .vmem S1x256x2048 .f32) (h6 : a6.IsWhole) (a7 : Memref sig .tc .vmem S1x256x2048 .f32) (h7 : a7.IsWhole) (a8 : Memref sig .tc .vmem S8x2048 .f32) (h8 : a8.IsWhole) (hc : cond0_0 i)
    (x0 : Vec F S1x256x1024 .f32) (x1 : Vec F S1024x2048 .bf16) (x2 : Vec F S1x2048 .f32) :
    out0_A_3 c i a2 h2 a3 h3 a4 h4 a5 h5 a6 h6 a7 h7 a8 h8 hc x0 x1 x2
      = k0_pay3 (k0_pay9 x0 x1 x2 clearedHalo) (k0_pay10 x0 x1 x2 clearedHalo) := by
  unfold out0_A_3
  rw [View.read_writes_eq_canon _ _ _ (cover0_A_3 c i a2 h2 a3 h3 a4 h4 a5 h5 a6 h6 a7 h7 a8 h8 hc x0 x1 x2)]
  unfold kernelRun0_A
  dsimp only
  sl_unfold_words
  rw [View.canon_unit_zero (S := S1x256x2048) hz3]
  simp only [View.readAt_eq_ld, h2.read_unread, h3.read_unread, h4.read_unread, h8.read_unread,
    View.ld_unit_zero (S := S1x256x1024) hz3, View.ld_unit_zero (S := S1024x2048) hz2, View.ld_unit_zero (S := S1x2048) hz2]
  rw [readCov_of_whole_store (S := S8x2048) _ hz2]

theorem out_A_4 (c : Dev nD) (i : grid0.Coords) (a2 : Memref sig .tc .vmem S1x256x1024 .f32) (h2 : a2.IsWhole) (a3 : Memref sig .tc .vmem S1024x2048 .bf16) (h3 : a3.IsWhole) (a4 : Memref sig .tc .vmem S1x2048 .f32) (h4 : a4.IsWhole) (a5 : Memref sig .tc .vmem S1x256x2048 .f32) (h5 : a5.IsWhole) (a6 : Memref sig .tc .vmem S1x256x2048 .f32) (h6 : a6.IsWhole) (a7 : Memref sig .tc .vmem S1x256x2048 .f32) (h7 : a7.IsWhole) (a8 : Memref sig .tc .vmem S8x2048 .f32) (h8 : a8.IsWhole) (hc : cond0_0 i)
    (x0 : Vec F S1x256x1024 .f32) (x1 : Vec F S1024x2048 .bf16) (x2 : Vec F S1x2048 .f32) :
    out0_A_4 c i a2 h2 a3 h3 a4 h4 a5 h5 a6 h6 a7 h7 a8 h8 hc x0 x1 x2
      = k0_pay4 (k0_pay9 x0 x1 x2 clearedHalo) (k0_pay10 x0 x1 x2 clearedHalo) := by
  unfold out0_A_4
  rw [View.read_writes_eq_canon _ _ _ (cover0_A_4 c i a2 h2 a3 h3 a4 h4 a5 h5 a6 h6 a7 h7 a8 h8 hc x0 x1 x2)]
  unfold kernelRun0_A
  dsimp only
  sl_unfold_words
  rw [View.canon_unit_zero (S := S1x256x2048) hz3]
  simp only [View.readAt_eq_ld, h2.read_unread, h3.read_unread, h4.read_unread, h8.read_unread,
    View.ld_unit_zero (S := S1x256x1024) hz3, View.ld_unit_zero (S := S1024x2048) hz2, View.ld_unit_zero (S := S1x2048) hz2]
  rw [readCov_of_whole_store (S := S8x2048) _ hz2]

theorem out_A_5 (c : Dev nD) (i : grid0.Coords) (a2 : Memref sig .tc .vmem S1x256x1024 .f32) (h2 : a2.IsWhole) (a3 : Memref sig .tc .vmem S1024x2048 .bf16) (h3 : a3.IsWhole) (a4 : Memref sig .tc .vmem S1x2048 .f32) (h4 : a4.IsWhole) (a5 : Memref sig .tc .vmem S1x256x2048 .f32) (h5 : a5.IsWhole) (a6 : Memref sig .tc .vmem S1x256x2048 .f32) (h6 : a6.IsWhole) (a7 : Memref sig .tc .vmem S1x256x2048 .f32) (h7 : a7.IsWhole) (a8 : Memref sig .tc .vmem S8x2048 .f32) (h8 : a8.IsWhole) (hc : cond0_0 i)
    (x0 : Vec F S1x256x1024 .f32) (x1 : Vec F S1024x2048 .bf16) (x2 : Vec F S1x2048 .f32) :
    out0_A_5 c i a2 h2 a3 h3 a4 h4 a5 h5 a6 h6 a7 h7 a8 h8 hc x0 x1 x2
      = k0_pay5 (k0_pay9 x0 x1 x2 clearedHalo) (k0_pay10 x0 x1 x2 clearedHalo) := by
  unfold out0_A_5
  rw [View.read_writes_eq_canon _ _ _ (cover0_A_5 c i a2 h2 a3 h3 a4 h4 a5 h5 a6 h6 a7 h7 a8 h8 hc x0 x1 x2)]
  unfold kernelRun0_A
  dsimp only
  sl_unfold_words
  rw [View.canon_unit_zero (S := S1x256x2048) hz3]
  simp only [View.readAt_eq_ld, h2.read_unread, h3.read_unread, h4.read_unread, h8.read_unread,
    View.ld_unit_zero (S := S1x256x1024) hz3, View.ld_unit_zero (S := S1024x2048) hz2, View.ld_unit_zero (S := S1x2048) hz2]
  rw [readCov_of_whole_store (S := S8x2048) _ hz2]

/-! ## The carried rows -/

/-- Case B leaves, in the first seven carried rows, the last seven rows of its dense block. -/
theorem halo_B (c : Dev nD) (i : grid0.Coords) (a2 : Memref sig .tc .vmem S1x256x1024 .f32) (h2 : a2.IsWhole) (a3 : Memref sig .tc .vmem S1024x2048 .bf16) (h3 : a3.IsWhole) (a4 : Memref sig .tc .vmem S1x2048 .f32) (h4 : a4.IsWhole) (a5 : Memref sig .tc .vmem S1x256x2048 .f32) (h5 : a5.IsWhole) (a6 : Memref sig .tc .vmem S1x256x2048 .f32) (h6 : a6.IsWhole) (a7 : Memref sig .tc .vmem S1x256x2048 .f32) (h7 : a7.IsWhole) (a8 : Memref sig .tc .vmem S8x2048 .f32) (h8 : a8.IsWhole) (hc : ¬cond0_0 i)
    (x0 : Vec F S1x256x1024 .f32) (x1 : Vec F S1024x2048 .bf16) (x2 : Vec F S1x2048 .f32) (xs0 : Vec F S8x2048 .f32) :
    View.ld (sout0_B_0 c i a2 h2 a3 h3 a4 h4 a5 h5 a6 h6 a7 h7 a8 h8 hc x0 x1 x2 xs0) top7 = k0_pay6 (k0_pay8 x0 x1 x2) := by
  unfold sout0_B_0
  unfold kernelRun0_B
  dsimp only
  sl_unfold_words
  simp only [View.readAt_eq_ld, h2.read_unread, h3.read_unread, h4.read_unread, h8.read_unread,
    View.ld_unit_zero (S := S1x256x1024) hz3, View.ld_unit_zero (S := S1024x2048) hz2, View.ld_unit_zero (S := S1x2048) hz2]
  funext y
  exact View.read_writes_cons_emb _ _ top7 _ _ y

/-- So does case A, on top of the rows it cleared. -/
theorem halo_A (c : Dev nD) (i : grid0.Coords) (a2 : Memref sig .tc .vmem S1x256x1024 .f32) (h2 : a2.IsWhole) (a3 : Memref sig .tc .vmem S1024x2048 .bf16) (h3 : a3.IsWhole) (a4 : Memref sig .tc .vmem S1x2048 .f32) (h4 : a4.IsWhole) (a5 : Memref sig .tc .vmem S1x256x2048 .f32) (h5 : a5.IsWhole) (a6 : Memref sig .tc .vmem S1x256x2048 .f32) (h6 : a6.IsWhole) (a7 : Memref sig .tc .vmem S1x256x2048 .f32) (h7 : a7.IsWhole) (a8 : Memref sig .tc .vmem S8x2048 .f32) (h8 : a8.IsWhole) (hc : cond0_0 i)
    (x0 : Vec F S1x256x1024 .f32) (x1 : Vec F S1024x2048 .bf16) (x2 : Vec F S1x2048 .f32) :
    View.ld (sout0_A_0 c i a2 h2 a3 h3 a4 h4 a5 h5 a6 h6 a7 h7 a8 h8 hc x0 x1 x2) top7 = k0_pay6 (k0_pay8 x0 x1 x2) := by
  unfold sout0_A_0
  unfold kernelRun0_A
  dsimp only
  sl_unfold_words
  simp only [View.readAt_eq_ld, h2.read_unread, h3.read_unread, h4.read_unread, h8.read_unread,
    View.ld_unit_zero (S := S1x256x1024) hz3, View.ld_unit_zero (S := S1024x2048) hz2, View.ld_unit_zero (S := S1x2048) hz2]
  funext y
  exact View.read_writes_cons_emb _ _ top7 _ _ y

end Cert.KernelIdeal.Pieces

end
-- ==== Proof.Grid.lean ====
/-
  The kernel's three result arrays after the run, at the ideal values, as functions of the argument arrays.

  The grid has 64 points; point t works on batch t / 8 and time tile t % 8 (rows 256 (t % 8) … 256 (t % 8) + 255).
  Its first input block is those rows of batch t / 8 of x; its second and third are the whole weight (narrowed to
  a shorter float format before the run: the identity at the ideal values) and the bias as one row. At a batch's
  first tile the halo is the cleared rows; at a later tile it is what the point before left in the first seven
  carried rows, the last seven rows of that tile's dense block, whichever case that point was. So every point
  writes back a block of the specification's arrays, the blocks tile the arrays, and the arrays end as specified.
-/
import proofs.«167633_j52072183496865_2_alg».proof.Proof.Gen.KernelIdeal.Value
import proofs.«167633_j52072183496865_2_alg».proof.Proof.BodyMath
import proofs.«167633_j52072183496865_2_alg».proof.Proof.Pieces
import Idealize.ShloMosaic.Lib.StableHlo.Run
import Idealize.ShloMosaic.Lib.ValueLayout
import Idealize.ShloMosaic.Lib.Pipeline.Value

set_option maxRecDepth 16384

noncomputable section

namespace Cert.KernelIdeal.Grid

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.ShiftConv Cert.KernelIdeal.Pieces

variable (m : (ℓ : Loc nD τ sig) → Buf (Elt Ideal) ℓ) (ρ : Dev nD → PrngReg)

/-- The argument arrays on core c. -/
abbrev argX (c : Dev nD) : SX.Idx → EReal := m ((c : Thread nD τ).loc main_arg0)
abbrev argW (c : Dev nD) : SW.Idx → EReal := m ((c : Thread nD τ).loc main_arg1)
abbrev argB (c : Dev nD) : SB.Idx → EReal := m ((c : Thread nD τ).loc main_arg2)

theorem lt64 (t : Fin cfg0.N) : t.val < 64 := lt_of_lt_of_eq t.isLt N_0

/-- The printed index maps, decided over the 64 points: the first input and the three outputs are at batch t / 8,
    tile t % 8; the weight and the bias do not move. -/
theorem idx_facts : ∀ t : Fin cfg0.N,
    win0_0.index t (0 : Fin 3) = t.val / 8 ∧ win0_0.index t (1 : Fin 3) = t.val % 8 ∧ win0_0.index t (2 : Fin 3) = 0
    ∧ win0_3.index t (0 : Fin 3) = t.val / 8 ∧ win0_3.index t (1 : Fin 3) = t.val % 8 ∧ win0_3.index t (2 : Fin 3) = 0
    ∧ win0_4.index t (0 : Fin 3) = t.val / 8 ∧ win0_4.index t (1 : Fin 3) = t.val % 8 ∧ win0_4.index t (2 : Fin 3) = 0
    ∧ win0_5.index t (0 : Fin 3) = t.val / 8 ∧ win0_5.index t (1 : Fin 3) = t.val % 8 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-! ## The input blocks of a point -/

theorem blk0 (c : Dev nD) (t : Fin cfg0.N) (j : Fin 256) (k : Fin 1024) :
    (iblk m c 0 t : Vec Ideal S1x256x1024 .f32) (ix3 (0 : Fin 1) j k)
      = argX m c (ix3 (⟨t.val / 8, by have := lt64 t; omega⟩ : Fin 8)
          (⟨256 * (t.val % 8) + j.val, by omega⟩ : Fin 2048) k) := by
  obtain ⟨e0, e1, e2, -⟩ := idx_facts t
  show V m c main_arg0 (((cfg0.win 0).blk t).view.emb (ix3 (0 : Fin 1) j k)) = _
  rw [V_main_arg0]
  refine congrArg (m ((c : Thread nD τ).loc main_arg0)) (funext fun a => Fin.ext ?_)
  match a with
  | ⟨0, _⟩ => show win0_0.index t (0 : Fin 3) * 1 + 1 * 0 = t.val / 8; omega
  | ⟨1, _⟩ => show win0_0.index t (1 : Fin 3) * 256 + 1 * j.val = 256 * (t.val % 8) + j.val; omega
  | ⟨2, _⟩ => show win0_0.index t (2 : Fin 3) * 1024 + 1 * k.val = k.val; omega

theorem blk1 (c : Dev nD) (t : Fin cfg0.N) (k : Fin 1024) (f : Fin 2048) :
    (iblk m c 1 t : Vec Ideal S1024x2048 .bf16) (ix2 k f) = argW m c (ix2 k f) := by
  obtain ⟨-, -, -, -, -, -, -, -, -, -, -, -, e0, e1, -⟩ := idx_facts t
  show V m c main_v0 (((cfg0.win 1).blk t).view.emb (ix2 k f)) = _
  have e : @Eq (FVec Ideal S1024x2048 .bf16) (V m c main_v0)
      (truncf .bf16 (m ((c : Thread nD τ).loc main_arg1) : FVec Ideal S1024x2048 .f32) bitsLt_bf16_f32) := by
    dsimp only [Gen.V, Gen.hostOps0]; after_results <;> rfl
  rw [e, truncf_apply]
  refine congrArg (m ((c : Thread nD τ).loc main_arg1)) (funext fun a => Fin.ext ?_)
  match a with
  | ⟨0, _⟩ => show win0_1.index t (0 : Fin 2) * 1024 + 1 * k.val = k.val; omega
  | ⟨1, _⟩ => show win0_1.index t (1 : Fin 2) * 2048 + 1 * f.val = f.val; omega

theorem blk2 (c : Dev nD) (t : Fin cfg0.N) (f : Fin 2048) :
    (iblk m c 2 t : Vec Ideal S1x2048 .f32) (ix2 (0 : Fin 1) f) = argB m c (ix1 f) := by
  obtain ⟨-, -, -, -, -, -, -, -, -, -, -, -, -, -, e0, e1⟩ := idx_facts t
  show V m c main_v1 (((cfg0.win 2).blk t).view.emb (ix2 (0 : Fin 1) f)) = _
  have e : @Eq (FVec Ideal S1x2048 .f32) (V m c main_v1)
      (shapeCast S1x2048 (m ((c : Thread nD τ).loc main_arg2) : FVec Ideal S2048 .f32) shapeCasts_S2048_S1x2048) := by
    dsimp only [Gen.V, Gen.hostOps0]; after_results <;> rfl
  rw [e]
  have hi : ((cfg0.win 2).blk t).view.emb (ix2 (0 : Fin 1) f) = ix2 (0 : Fin 1) f := funext fun a => Fin.ext (by
    match a with
    | ⟨0, _⟩ => show win0_2.index t (0 : Fin 2) * 1 + 1 * 0 = 0; omega
    | ⟨1, _⟩ => show win0_2.index t (1 : Fin 2) * 2048 + 1 * f.val = f.val; omega)
  rw [hi]
  exact shapeCast_a_1a_apply _ _ _ _

/-! ## The halo of a later tile -/

/-- The dense block of point t is rows 256 (t % 8) … of batch t / 8 of the projection. -/
theorem dense_at (c : Dev nD) (t : Fin cfg0.N) (q : Fin 256) (f : Fin 2048) :
    k0_pay8 (iblk m c 0 t) (iblk m c 1 t) (iblk m c 2 t) (ix2 q f)
      = dense (argX m c) (argW m c) (argB m c) (⟨t.val / 8, by have := lt64 t; omega⟩ : Fin 8)
          (⟨256 * (t.val % 8) + q.val, by omega⟩ : Fin 2048) f :=
  Body.dense_point (iblk m c 0 t) (iblk m c 1 t) (iblk m c 2 t) (argX m c) (argW m c) (argB m c)
    (⟨t.val / 8, by have := lt64 t; omega⟩ : Fin 8) (⟨t.val % 8, by omega⟩ : Fin 8)
    (blk0 m c t) (blk1 m c t) (blk2 m c t) q f

/-- What any point leaves in the first seven carried rows: the last seven rows of its dense block. -/
theorem carried_at (c : Dev nD) (t : Fin cfg0.N) :
    (View.ld (outsAt0 m c t.val t.isLt).2.2.2 top7 : Vec Ideal S7x2048 .f32)
      = k0_pay6 (k0_pay8 (iblk m c 0 t) (iblk m c 1 t) (iblk m c 2 t)) := by
  by_cases h0 : t.val % 8 = 0
  · have hA := congrArg (fun p : Vec Ideal S1x256x2048 .f32 × Vec Ideal S1x256x2048 .f32 × Vec Ideal S1x256x2048 .f32 × Vec Ideal S8x2048 .f32 => (View.ld p.2.2.2 top7 : Vec Ideal S7x2048 .f32)) (outsAt0_A m c t h0)
    dsimp only at hA
    exact hA.trans (halo_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t))
  · have hB := congrArg (fun p : Vec Ideal S1x256x2048 .f32 × Vec Ideal S1x256x2048 .f32 × Vec Ideal S1x256x2048 .f32 × Vec Ideal S8x2048 .f32 => (View.ld p.2.2.2 top7 : Vec Ideal S7x2048 .f32)) (outsAt0_B m c t h0)
    dsimp only at hB
    exact hB.trans (halo_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.2)

/-- So at a later tile the halo is the seven projected rows before the tile. -/
theorem halo_at (c : Dev nD) (t : Fin cfg0.N) (h0 : ¬t.val % 8 = 0) (r : Fin 7) (f : Fin 2048) :
    (View.ld (outsAt0 m c (t.val - 1) (Nat.lt_of_le_of_lt (Nat.sub_le _ _) t.isLt)).2.2.2 top7 : Vec Ideal S7x2048 .f32) (ix2 r f)
      = dense (argX m c) (argW m c) (argB m c) (⟨t.val / 8, by have := lt64 t; omega⟩ : Fin 8)
          (⟨256 * (t.val % 8) + r.val - 7, by omega⟩ : Fin 2048) f := by
  have h := congrFun (carried_at m c (⟨t.val - 1, Nat.lt_of_le_of_lt (Nat.sub_le _ _) t.isLt⟩ : Fin cfg0.N)) (ix2 r f)
  refine h.trans ?_
  rw [Body.next_halo, dense_at]
  have e8 : (t.val - 1) / 8 = t.val / 8 := by omega
  have e9 : 256 * ((t.val - 1) % 8) + (249 + r.val) = 256 * (t.val % 8) + r.val - 7 := by omega
  congr 1
  · exact Fin.ext e8
  · exact Fin.ext e9

/-! ## What each point writes back -/

/-- What point t writes back to result 0 is block t of Y. -/
theorem flushed_y (c : Dev nD) (t : Fin cfg0.N) :
    (dats m 0 c).flushed 3 t = ((cfg0.win 3).blk t).view.read (Elt Ideal) (Y (argX m c) (argW m c) (argB m c)) := by
  obtain ⟨-, -, -, e0, e1, e2, -⟩ := idx_facts t
  have hN := lt64 t
  funext y
  obtain ⟨u, j, o, rfl⟩ : ∃ (u : Fin 1) (j : Fin 256) (o : Fin 2048), y = ix3 u j o := ⟨y 0, y 1, y 2, eq_ix3 y⟩
  have hemb : ((cfg0.win 3).blk t).view.emb (ix3 u j o)
      = ix3 (⟨t.val / 8, by omega⟩ : Fin 8) (⟨256 * (t.val % 8) + j.val, by omega⟩ : Fin 2048) o := funext fun a => Fin.ext (by
    have hu : u.val = 0 := by omega
    match a with
    | ⟨0, _⟩ => show win0_3.index t (0 : Fin 3) * 1 + 1 * u.val = t.val / 8; omega
    | ⟨1, _⟩ => show win0_3.index t (1 : Fin 3) * 256 + 1 * j.val = 256 * (t.val % 8) + j.val; omega
    | ⟨2, _⟩ => show win0_3.index t (2 : Fin 3) * 2048 + 1 * o.val = o.val; omega)
  show _ = Y (argX m c) (argW m c) (argB m c) (((cfg0.win 3).blk t).view.emb (ix3 u j o))
  rw [hemb]
  by_cases h0 : t.val % 8 = 0
  · refine (congrFun (Value.flushed3_A m c t h0) (ix3 u j o)).trans ?_
    refine (congrFun (congrArg ((cfg0.win 3).cut (grid0.coords t))
      (out_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t))) (ix3 u j o)).trans ?_
    exact Body.block_y (iblk m c 0 t) (iblk m c 1 t) (iblk m c 2 t) clearedHalo (argX m c) (argW m c) (argB m c)
      (⟨t.val / 8, by omega⟩ : Fin 8) (⟨t.val % 8, by omega⟩ : Fin 8) (blk0 m c t) (blk1 m c t) (blk2 m c t)
      (fun r f => by rw [if_pos h0]; exact Body.zero_rows _) u j o
  · refine (congrFun (Value.flushed3_B m c t h0) (ix3 u j o)).trans ?_
    refine (congrFun (congrArg ((cfg0.win 3).cut (grid0.coords t))
      (out_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.2)) (ix3 u j o)).trans ?_
    exact Body.block_y (iblk m c 0 t) (iblk m c 1 t) (iblk m c 2 t) (View.ld (outsAt0 m c (t.val - 1) (Nat.lt_of_le_of_lt (Nat.sub_le _ _) t.isLt)).2.2.2 top7) (argX m c) (argW m c) (argB m c)
      (⟨t.val / 8, by omega⟩ : Fin 8) (⟨t.val % 8, by omega⟩ : Fin 8) (blk0 m c t) (blk1 m c t) (blk2 m c t)
      (fun r f => by rw [if_neg h0]; exact halo_at m c t h0 r f) u j o

/-- What point t writes back to result 1 is block t of A. -/
theorem flushed_a (c : Dev nD) (t : Fin cfg0.N) :
    (dats m 0 c).flushed 4 t = ((cfg0.win 4).blk t).view.read (Elt Ideal) (A (argX m c) (argW m c) (argB m c)) := by
  obtain ⟨-, -, -, -, -, -, e0, e1, e2, -⟩ := idx_facts t
  have hN := lt64 t
  funext y
  obtain ⟨u, j, o, rfl⟩ : ∃ (u : Fin 1) (j : Fin 256) (o : Fin 2048), y = ix3 u j o := ⟨y 0, y 1, y 2, eq_ix3 y⟩
  have hemb : ((cfg0.win 4).blk t).view.emb (ix3 u j o)
      = ix3 (⟨t.val / 8, by omega⟩ : Fin 8) (⟨256 * (t.val % 8) + j.val, by omega⟩ : Fin 2048) o := funext fun a => Fin.ext (by
    have hu : u.val = 0 := by omega
    match a with
    | ⟨0, _⟩ => show win0_4.index t (0 : Fin 3) * 1 + 1 * u.val = t.val / 8; omega
    | ⟨1, _⟩ => show win0_4.index t (1 : Fin 3) * 256 + 1 * j.val = 256 * (t.val % 8) + j.val; omega
    | ⟨2, _⟩ => show win0_4.index t (2 : Fin 3) * 2048 + 1 * o.val = o.val; omega)
  show _ = A (argX m c) (argW m c) (argB m c) (((cfg0.win 4).blk t).view.emb (ix3 u j o))
  rw [hemb]
  by_cases h0 : t.val % 8 = 0
  · refine (congrFun (Value.flushed4_A m c t h0) (ix3 u j o)).trans ?_
    refine (congrFun (congrArg ((cfg0.win 4).cut (grid0.coords t))
      (out_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t))) (ix3 u j o)).trans ?_
    exact Body.block_a (iblk m c 0 t) (iblk m c 1 t) (iblk m c 2 t) clearedHalo (argX m c) (argW m c) (argB m c)
      (⟨t.val / 8, by omega⟩ : Fin 8) (⟨t.val % 8, by omega⟩ : Fin 8) (blk0 m c t) (blk1 m c t) (blk2 m c t)
      (fun r f => by rw [if_pos h0]; exact Body.zero_rows _) u j o
  · refine (congrFun (Value.flushed4_B m c t h0) (ix3 u j o)).trans ?_
    refine (congrFun (congrArg ((cfg0.win 4).cut (grid0.coords t))
      (out_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.2)) (ix3 u j o)).trans ?_
    exact Body.block_a (iblk m c 0 t) (iblk m c 1 t) (iblk m c 2 t) (View.ld (outsAt0 m c (t.val - 1) (Nat.lt_of_le_of_lt (Nat.sub_le _ _) t.isLt)).2.2.2 top7) (argX m c) (argW m c) (argB m c)
      (⟨t.val / 8, by omega⟩ : Fin 8) (⟨t.val % 8, by omega⟩ : Fin 8) (blk0 m c t) (blk1 m c t) (blk2 m c t)
      (fun r f => by rw [if_neg h0]; exact halo_at m c t h0 r f) u j o

/-- What point t writes back to result 2 is block t of Z. -/
theorem flushed_z (c : Dev nD) (t : Fin cfg0.N) :
    (dats m 0 c).flushed 5 t = ((cfg0.win 5).blk t).view.read (Elt Ideal) (Z (argX m c) (argW m c) (argB m c)) := by
  obtain ⟨-, -, -, -, -, -, -, -, -, e0, e1, e2, -⟩ := idx_facts t
  have hN := lt64 t
  funext y
  obtain ⟨u, j, o, rfl⟩ : ∃ (u : Fin 1) (j : Fin 256) (o : Fin 2048), y = ix3 u j o := ⟨y 0, y 1, y 2, eq_ix3 y⟩
  have hemb : ((cfg0.win 5).blk t).view.emb (ix3 u j o)
      = ix3 (⟨t.val / 8, by omega⟩ : Fin 8) (⟨256 * (t.val % 8) + j.val, by omega⟩ : Fin 2048) o := funext fun a => Fin.ext (by
    have hu : u.val = 0 := by omega
    match a with
    | ⟨0, _⟩ => show win0_5.index t (0 : Fin 3) * 1 + 1 * u.val = t.val / 8; omega
    | ⟨1, _⟩ => show win0_5.index t (1 : Fin 3) * 256 + 1 * j.val = 256 * (t.val % 8) + j.val; omega
    | ⟨2, _⟩ => show win0_5.index t (2 : Fin 3) * 2048 + 1 * o.val = o.val; omega)
  show _ = Z (argX m c) (argW m c) (argB m c) (((cfg0.win 5).blk t).view.emb (ix3 u j o))
  rw [hemb]
  by_cases h0 : t.val % 8 = 0
  · refine (congrFun (Value.flushed5_A m c t h0) (ix3 u j o)).trans ?_
    refine (congrFun (congrArg ((cfg0.win 5).cut (grid0.coords t))
      (out_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t))) (ix3 u j o)).trans ?_
    exact Body.block_z (iblk m c 0 t) (iblk m c 1 t) (iblk m c 2 t) clearedHalo (argX m c) (argW m c) (argB m c)
      (⟨t.val / 8, by omega⟩ : Fin 8) (⟨t.val % 8, by omega⟩ : Fin 8) (blk0 m c t) (blk1 m c t) (blk2 m c t)
      (fun r f => by rw [if_pos h0]; exact Body.zero_rows _) u j o
  · refine (congrFun (Value.flushed5_B m c t h0) (ix3 u j o)).trans ?_
    refine (congrFun (congrArg ((cfg0.win 5).cut (grid0.coords t))
      (out_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.2)) (ix3 u j o)).trans ?_
    exact Body.block_z (iblk m c 0 t) (iblk m c 1 t) (iblk m c 2 t) (View.ld (outsAt0 m c (t.val - 1) (Nat.lt_of_le_of_lt (Nat.sub_le _ _) t.isLt)).2.2.2 top7) (argX m c) (argW m c) (argB m c)
      (⟨t.val / 8, by omega⟩ : Fin 8) (⟨t.val % 8, by omega⟩ : Fin 8) (blk0 m c t) (blk1 m c t) (blk2 m c t)
      (fun r f => by rw [if_neg h0]; exact halo_at m c t h0 r f) u j o

/-! ## The blocks tile the arrays -/

/-- An index of result 0 is in point t's block iff each coordinate is in the block's range on its axis. -/
theorem mem_blk3 (t : Fin cfg0.N) (i : S8x2048x2048.Idx) :
    i ∈ ((cfg0.win 3).blk t).view.set ↔ ∀ a : Fin 3, win0_3.index t a * S1x256x2048.size a ≤ (i a).val
      ∧ (i a).val < win0_3.index t a * S1x256x2048.size a + S1x256x2048.size a := by
  show i ∈ ((View.whole main_v2_0).slice (win0_3.rect t)).set ↔ _
  rw [View.set_slice_whole, Rect.mem_set_unit]
  exact Iff.rfl

/-- Entry (n, τ, o) is in the block of point 8 n + τ / 256. -/
theorem cover3 (i : S8x2048x2048.Idx) :
    ∃ t : Fin cfg0.N, (cfg0.win 3).flush t = true ∧ i ∈ ((cfg0.win 3).blk t).view.set := by
  have h0 : (i 0).val < 8 := (i 0).isLt
  have h1 : (i 1).val < 2048 := (i 1).isLt
  have h2 : (i 2).val < 2048 := (i 2).isLt
  have hb : 8 * (i 0).val + (i 1).val / 256 < cfg0.N := by rw [show cfg0.N = 64 from N_0]; omega
  refine ⟨⟨8 * (i 0).val + (i 1).val / 256, hb⟩, flush0_3 _, ?_⟩
  obtain ⟨-, -, -, e0, e1, e2, -⟩ := idx_facts ⟨8 * (i 0).val + (i 1).val / 256, hb⟩
  rw [mem_blk3]
  intro a
  match a with
  | ⟨0, _⟩ =>
    show win0_3.index ⟨8 * (i 0).val + (i 1).val / 256, hb⟩ (0 : Fin 3) * 1 ≤ (i 0).val
      ∧ (i 0).val < win0_3.index ⟨8 * (i 0).val + (i 1).val / 256, hb⟩ (0 : Fin 3) * 1 + 1
    rw [e0]; show (8 * (i 0).val + (i 1).val / 256) / 8 * 1 ≤ _ ∧ _ < (8 * (i 0).val + (i 1).val / 256) / 8 * 1 + 1; omega
  | ⟨1, _⟩ =>
    show win0_3.index ⟨8 * (i 0).val + (i 1).val / 256, hb⟩ (1 : Fin 3) * 256 ≤ (i 1).val
      ∧ (i 1).val < win0_3.index ⟨8 * (i 0).val + (i 1).val / 256, hb⟩ (1 : Fin 3) * 256 + 256
    rw [e1]; show (8 * (i 0).val + (i 1).val / 256) % 8 * 256 ≤ _ ∧ _ < (8 * (i 0).val + (i 1).val / 256) % 8 * 256 + 256; omega
  | ⟨2, _⟩ =>
    show win0_3.index ⟨8 * (i 0).val + (i 1).val / 256, hb⟩ (2 : Fin 3) * 2048 ≤ (i 2).val
      ∧ (i 2).val < win0_3.index ⟨8 * (i 0).val + (i 1).val / 256, hb⟩ (2 : Fin 3) * 2048 + 2048
    rw [e2]; omega

/-- Result 0 after the run. -/
theorem final_y (c : Dev nD) : (dats m 0 c).arrAt 3 cfg0.N = Y (argX m c) (argW m c) (argB m c) :=
  (dats m 0 c).arrAt_eq_of_cover 3 (Y (argX m c) (argW m c) (argB m c)) (fun t _ => flushed_y m c t) cover3

/-- An index of result 1 is in point t's block iff each coordinate is in the block's range on its axis. -/
theorem mem_blk4 (t : Fin cfg0.N) (i : S8x2048x2048.Idx) :
    i ∈ ((cfg0.win 4).blk t).view.set ↔ ∀ a : Fin 3, win0_4.index t a * S1x256x2048.size a ≤ (i a).val
      ∧ (i a).val < win0_4.index t a * S1x256x2048.size a + S1x256x2048.size a := by
  show i ∈ ((View.whole main_v2_1).slice (win0_4.rect t)).set ↔ _
  rw [View.set_slice_whole, Rect.mem_set_unit]
  exact Iff.rfl

/-- Entry (n, τ, o) is in the block of point 8 n + τ / 256. -/
theorem cover4 (i : S8x2048x2048.Idx) :
    ∃ t : Fin cfg0.N, (cfg0.win 4).flush t = true ∧ i ∈ ((cfg0.win 4).blk t).view.set := by
  have h0 : (i 0).val < 8 := (i 0).isLt
  have h1 : (i 1).val < 2048 := (i 1).isLt
  have h2 : (i 2).val < 2048 := (i 2).isLt
  have hb : 8 * (i 0).val + (i 1).val / 256 < cfg0.N := by rw [show cfg0.N = 64 from N_0]; omega
  refine ⟨⟨8 * (i 0).val + (i 1).val / 256, hb⟩, flush0_4 _, ?_⟩
  obtain ⟨-, -, -, -, -, -, e0, e1, e2, -⟩ := idx_facts ⟨8 * (i 0).val + (i 1).val / 256, hb⟩
  rw [mem_blk4]
  intro a
  match a with
  | ⟨0, _⟩ =>
    show win0_4.index ⟨8 * (i 0).val + (i 1).val / 256, hb⟩ (0 : Fin 3) * 1 ≤ (i 0).val
      ∧ (i 0).val < win0_4.index ⟨8 * (i 0).val + (i 1).val / 256, hb⟩ (0 : Fin 3) * 1 + 1
    rw [e0]; show (8 * (i 0).val + (i 1).val / 256) / 8 * 1 ≤ _ ∧ _ < (8 * (i 0).val + (i 1).val / 256) / 8 * 1 + 1; omega
  | ⟨1, _⟩ =>
    show win0_4.index ⟨8 * (i 0).val + (i 1).val / 256, hb⟩ (1 : Fin 3) * 256 ≤ (i 1).val
      ∧ (i 1).val < win0_4.index ⟨8 * (i 0).val + (i 1).val / 256, hb⟩ (1 : Fin 3) * 256 + 256
    rw [e1]; show (8 * (i 0).val + (i 1).val / 256) % 8 * 256 ≤ _ ∧ _ < (8 * (i 0).val + (i 1).val / 256) % 8 * 256 + 256; omega
  | ⟨2, _⟩ =>
    show win0_4.index ⟨8 * (i 0).val + (i 1).val / 256, hb⟩ (2 : Fin 3) * 2048 ≤ (i 2).val
      ∧ (i 2).val < win0_4.index ⟨8 * (i 0).val + (i 1).val / 256, hb⟩ (2 : Fin 3) * 2048 + 2048
    rw [e2]; omega

/-- Result 1 after the run. -/
theorem final_a (c : Dev nD) : (dats m 0 c).arrAt 4 cfg0.N = A (argX m c) (argW m c) (argB m c) :=
  (dats m 0 c).arrAt_eq_of_cover 4 (A (argX m c) (argW m c) (argB m c)) (fun t _ => flushed_a m c t) cover4

/-- An index of result 2 is in point t's block iff each coordinate is in the block's range on its axis. -/
theorem mem_blk5 (t : Fin cfg0.N) (i : S8x2048x2048.Idx) :
    i ∈ ((cfg0.win 5).blk t).view.set ↔ ∀ a : Fin 3, win0_5.index t a * S1x256x2048.size a ≤ (i a).val
      ∧ (i a).val < win0_5.index t a * S1x256x2048.size a + S1x256x2048.size a := by
  show i ∈ ((View.whole main_v2_2).slice (win0_5.rect t)).set ↔ _
  rw [View.set_slice_whole, Rect.mem_set_unit]
  exact Iff.rfl

/-- Entry (n, τ, o) is in the block of point 8 n + τ / 256. -/
theorem cover5 (i : S8x2048x2048.Idx) :
    ∃ t : Fin cfg0.N, (cfg0.win 5).flush t = true ∧ i ∈ ((cfg0.win 5).blk t).view.set := by
  have h0 : (i 0).val < 8 := (i 0).isLt
  have h1 : (i 1).val < 2048 := (i 1).isLt
  have h2 : (i 2).val < 2048 := (i 2).isLt
  have hb : 8 * (i 0).val + (i 1).val / 256 < cfg0.N := by rw [show cfg0.N = 64 from N_0]; omega
  refine ⟨⟨8 * (i 0).val + (i 1).val / 256, hb⟩, flush0_5 _, ?_⟩
  obtain ⟨-, -, -, -, -, -, -, -, -, e0, e1, e2, -⟩ := idx_facts ⟨8 * (i 0).val + (i 1).val / 256, hb⟩
  rw [mem_blk5]
  intro a
  match a with
  | ⟨0, _⟩ =>
    show win0_5.index ⟨8 * (i 0).val + (i 1).val / 256, hb⟩ (0 : Fin 3) * 1 ≤ (i 0).val
      ∧ (i 0).val < win0_5.index ⟨8 * (i 0).val + (i 1).val / 256, hb⟩ (0 : Fin 3) * 1 + 1
    rw [e0]; show (8 * (i 0).val + (i 1).val / 256) / 8 * 1 ≤ _ ∧ _ < (8 * (i 0).val + (i 1).val / 256) / 8 * 1 + 1; omega
  | ⟨1, _⟩ =>
    show win0_5.index ⟨8 * (i 0).val + (i 1).val / 256, hb⟩ (1 : Fin 3) * 256 ≤ (i 1).val
      ∧ (i 1).val < win0_5.index ⟨8 * (i 0).val + (i 1).val / 256, hb⟩ (1 : Fin 3) * 256 + 256
    rw [e1]; show (8 * (i 0).val + (i 1).val / 256) % 8 * 256 ≤ _ ∧ _ < (8 * (i 0).val + (i 1).val / 256) % 8 * 256 + 256; omega
  | ⟨2, _⟩ =>
    show win0_5.index ⟨8 * (i 0).val + (i 1).val / 256, hb⟩ (2 : Fin 3) * 2048 ≤ (i 2).val
      ∧ (i 2).val < win0_5.index ⟨8 * (i 0).val + (i 1).val / 256, hb⟩ (2 : Fin 3) * 2048 + 2048
    rw [e2]; omega

/-- Result 2 after the run. -/
theorem final_z (c : Dev nD) : (dats m 0 c).arrAt 5 cfg0.N = Z (argX m c) (argW m c) (argB m c) :=
  (dats m 0 c).arrAt_eq_of_cover 5 (Z (argX m c) (argW m c) (argB m c)) (fun t _ => flushed_z m c t) cover5

/-! ## The run, read -/

/-- Every weakly fair execution of the idealized kernel ends with its three results at the specification's
    arrays of the arguments, the arguments unchanged. -/
theorem run : θ_run defs (onTc (τ := τ) (main (F := Ideal))) ⟨m, fun _ => 0, ρ⟩ fun r => ∀ c : Dev nD,
      r.2.mem ((c : Thread nD τ).loc main_v2_0) = Y (argX m c) (argW m c) (argB m c)
      ∧ r.2.mem ((c : Thread nD τ).loc main_v2_1) = A (argX m c) (argW m c) (argB m c)
      ∧ r.2.mem ((c : Thread nD τ).loc main_v2_2) = Z (argX m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_y m c), (h c).2.1.trans (final_a m c),
      (h c).2.2.1.trans (final_z m c), (h c).2.2.2⟩)
    (Value.run_blocks m ρ)

end Cert.KernelIdeal.Grid

end
-- ==== Proof.lean ====
/-
  The five claims of this certificate.

  The kernel computes a dense projection h = x · W + b of each 256-row time tile, then a shifted convolution along
  time of eight taps, each tap reading the projection a few steps back in time with the channels moved round by as
  many places, then the hyperbolic tangent of that sum and the indicator of its positivity. It walks the time
  tiles of a batch in order and carries the last seven projected rows of a tile to the next one, starting every
  batch from zero rows. The reference pads the whole projection with seven zero rows in front and adds the same
  eight taps as slices of channel-rolled copies of the padded array, in the opposite order.

  frame (three programs): the two kernels' frames are the generated ones; the reference's is its generated run with
  the results dropped.
  preserves: the idealization rewrote nothing, so there is nothing to state.
  algebraic: over the extended reals both programs end with the same three arrays of the arguments — the
  specification's y, a = tanh y and z = [a > 0]. On the kernel's side every grid point writes back one block of
  each array (the halo a tile reads being exactly the seven projected rows before it, or zeros at the start of a
  batch), and the blocks tile the arrays; on the reference's side each of its eight terms is one tap. The two
  orders of adding the taps agree because addition of extended reals is commutative and associative; no
  finiteness of the inputs is used.
-/
import proofs.«167633_j52072183496865_2_alg».proof.Defs
import proofs.«167633_j52072183496865_2_alg».proof.Proof.Gen.Kernel
import proofs.«167633_j52072183496865_2_alg».proof.Proof.Gen.Kernel.Skeleton
import proofs.«167633_j52072183496865_2_alg».proof.Proof.Gen.Kernel.Launch
import proofs.«167633_j52072183496865_2_alg».proof.Proof.Gen.Kernel.Points
import proofs.«167633_j52072183496865_2_alg».proof.Proof.Gen.Kernel.Frame
import proofs.«167633_j52072183496865_2_alg».proof.Proof.Gen.KernelIdeal
import proofs.«167633_j52072183496865_2_alg».proof.Proof.Gen.KernelIdeal.Skeleton
import proofs.«167633_j52072183496865_2_alg».proof.Proof.Gen.KernelIdeal.Launch
import proofs.«167633_j52072183496865_2_alg».proof.Proof.Gen.KernelIdeal.Points
import proofs.«167633_j52072183496865_2_alg».proof.Proof.Gen.KernelIdeal.Frame
import proofs.«167633_j52072183496865_2_alg».proof.Proof.Gen.ReferenceIdeal
import proofs.«167633_j52072183496865_2_alg».proof.Proof.Gen.Pre_finite_inputs
import proofs.«167633_j52072183496865_2_alg».proof.Proof.Gen.KernelIdeal.Value
import proofs.«167633_j52072183496865_2_alg».proof.Proof.Gen.ReferenceIdeal.Run
import proofs.«167633_j52072183496865_2_alg».proof.Proof.Gen.ReferenceIdeal.Read
import proofs.«167633_j52072183496865_2_alg».proof.Proof.Spec
import proofs.«167633_j52072183496865_2_alg».proof.Proof.RefIsSpec
import proofs.«167633_j52072183496865_2_alg».proof.Proof.Grid
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2.2)
    (Cert.ReferenceIdeal.Value.run (F := Ideal) m ρ)

theorem preserves : Cert.preserves_Kernel_KernelIdeal := trivial

/-- From memories agreeing on the arguments both idealized programs end with the specification's three arrays of
    those arguments. -/
theorem algebraic : Cert.algebraic_KernelIdeal_ReferenceIdeal := by
  intro m ρ m' ρ' _ hagree
  refine ⟨fun c => Cert.ShiftConv.Y (Cert.KernelIdeal.Grid.argX m c) (Cert.KernelIdeal.Grid.argW m c) (Cert.KernelIdeal.Grid.argB m c),
    fun c => Cert.ShiftConv.A (Cert.KernelIdeal.Grid.argX m c) (Cert.KernelIdeal.Grid.argW m c) (Cert.KernelIdeal.Grid.argB m c),
    fun c => Cert.ShiftConv.Z (Cert.KernelIdeal.Grid.argX m c) (Cert.KernelIdeal.Grid.argW m c) (Cert.KernelIdeal.Grid.argB m c),
    Cert.KernelIdeal.Grid.run m ρ, ?_⟩
  refine (θ_run Cert.ReferenceIdeal.defs _ _).mono (fun _ h c => ?_) (Cert.ReferenceIdeal.Value.run (F := Ideal) m' ρ')
  refine ⟨(h c).1.trans ?_, (h c).2.1.trans ?_, (h c).2.2.1.trans ?_, (h c).2.2.2⟩
  · rw [Cert.ReferenceIdeal.Read.val_main_v30_eq, Cert.ShiftConv.Ref.ref_y, (hagree c).1, (hagree c).2.1, (hagree c).2.2]
  · rw [Cert.ReferenceIdeal.Read.val_main_v31_eq, Cert.ShiftConv.Ref.ref_a, (hagree c).1, (hagree c).2.1, (hagree c).2.2]
  · rw [Cert.ReferenceIdeal.Read.val_main_v34_eq, Cert.ShiftConv.Ref.ref_z, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
